-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 10000#32
  let main_v36 : IVec S2x320000 32 := broadcastInDim S2x320000 ![] bcast_S_S2x320000 main_c_13
  let main_v37 : IVec S2x320000 1 := cmpi .slt main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  main_v40

def fn_part1 {F : FTy → Type} [FloatOps F] (main_arg1 : IVec S2x320000 32) (main_arg6 : FVec F S16 .f32) (main_arg7 : FVec F S32x1 .f32) (main_arg8 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S10000x10000 .f32) (main_arg1 : IVec S2x320000 32) (main_arg2 : IVec S200000x2 32) (main_arg3 : FVec F S10000x32 .f32) (main_arg4 : FVec F S32 .f32) (main_arg5 : FVec F S32x16 .f32) (main_arg6 : FVec F S16 .f32) (main_arg7 : FVec F S32x1 .f32) (main_arg8 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x32 .f32 := Host.absf main_arg3
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg1 main_arg6 main_arg7 main_arg8 main_v13 main_v16
-- ==== Kernel.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x2 : Shape := ⟨2, ![330000, 2]⟩
abbrev S200x10000 : Shape := ⟨2, ![200, 10000]⟩
abbrev S200x32 : Shape := ⟨2, ![200, 32]⟩
abbrev S1x32 : Shape := ⟨2, ![1, 32]⟩
abbrev S10000x16 : Shape := ⟨2, ![10000, 16]⟩
abbrev S1x16 : Shape := ⟨2, ![1, 16]⟩
abbrev S200x16 : Shape := ⟨2, ![200, 16]⟩
abbrev S200000x1 : Shape := ⟨2, ![200000, 1]⟩
abbrev S200000 : Shape := ⟨1, ![200000]⟩
abbrev S200000x16 : Shape := ⟨2, ![200000, 16]⟩
abbrev S200000x32 : Shape := ⟨2, ![200000, 32]⟩
abbrev S1x1 : Shape := ⟨2, ![1, 1]⟩

abbrev nBuf : Space → Nat
  | .hbm => 106
  | .vmem => 17
  | .smem => 0
  | _ => 0

abbrev bufTy : (tb : Table) → Fin (tcTables nBuf tb) → BufTy
  | .hbm, ⟨0, _⟩ => ⟨S10000x10000, .f32⟩
  | .hbm, ⟨1, _⟩ => ⟨S2x320000, .i32⟩
  | .hbm, ⟨2, _⟩ => ⟨S200000x2, .i32⟩
  | .hbm, ⟨3, _⟩ => ⟨S10000x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x1, .f32⟩
  | .hbm, ⟨8, _⟩ => ⟨S1, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S10000, .i32⟩
  | .hbm, ⟨14, _⟩ => ⟨S330000, .i32⟩
  | .hbm, ⟨15, _⟩ => ⟨S330000, .i32⟩
  | .hbm, ⟨16, _⟩ => ⟨S_, .f32⟩
  | .hbm, ⟨17, _⟩ => ⟨S330000, .f32⟩
  | .hbm, ⟨18, _⟩ => ⟨S_, .f32⟩
  | .hbm, ⟨19, _⟩ => ⟨S10000, .f32⟩
  | .hbm, ⟨20, _⟩ => ⟨S330000x1, .i32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S330000, .i32⟩
  | .hbm, ⟨25, _⟩ => ⟨S330000, .i1⟩
  | .hbm, ⟨26, _⟩ => ⟨S_, .i32⟩
  | .hbm, ⟨27, _⟩ => ⟨S330000, .i32⟩
  | .hbm, ⟨28, _⟩ => ⟨S330000, .i32⟩
  | .hbm, ⟨29, _⟩ => ⟨S330000, .i32⟩
  | .hbm, ⟨30, _⟩ => ⟨S330000x1, .i32⟩
  | .hbm, ⟨31, _⟩ => ⟨S330000, .f32⟩
  | .hbm, ⟨32, _⟩ => ⟨S_, .i32⟩
  | .hbm, ⟨33, _⟩ => ⟨S330000, .i32⟩
  | .hbm, ⟨34, _⟩ => ⟨S330000, .i1⟩
  | .hbm, ⟨35, _⟩ => ⟨S_, .i32⟩
  | .hbm, ⟨36, _⟩ => ⟨S330000, .i32⟩
  | .hbm, ⟨37, _⟩ => ⟨S330000, .i32⟩
  | .hbm, ⟨38, _⟩ => ⟨S330000, .i32⟩
  | .hbm, ⟨39, _⟩ => ⟨S330000x1, .i32⟩
  | .hbm, ⟨40, _⟩ => ⟨S330000, .f32⟩
  | .hbm, ⟨41, _⟩ => ⟨S330000, .f32⟩
  | .hbm, ⟨42, _⟩ => ⟨S_, .f32⟩
  | .hbm, ⟨43, _⟩ => ⟨S10000x10000, .f32⟩
  | .hbm, ⟨44, _⟩ => ⟨S_, .i32⟩
  | .hbm, ⟨45, _⟩ => ⟨S330000, .i32⟩
  | .hbm, ⟨46, _⟩ => ⟨S330000, .i1⟩
  | .hbm, ⟨47, _⟩ => ⟨S_, .i32⟩
  | .hbm, ⟨48, _⟩ => ⟨S330000, .i32⟩
  | .hbm, ⟨49, _⟩ => ⟨S330000, .i32⟩
  | .hbm, ⟨50, _⟩ => ⟨S330000, .i32⟩
  | .hbm, ⟨51, _⟩ => ⟨S_, .i32⟩
  | .hbm, ⟨52, _⟩ => ⟨S330000, .i32⟩
  | .hbm, ⟨53, _⟩ => ⟨S330000, .i1⟩
  | .hbm, ⟨54, _⟩ => ⟨S_, .i32⟩
  | .hbm, ⟨55, _⟩ => ⟨S330000, .i32⟩
  | .hbm, ⟨56, _⟩ => ⟨S330000, .i32⟩
  | .hbm, ⟨57, _⟩ => ⟨S330000, .i32⟩
  | .hbm, ⟨58, _⟩ => ⟨S330000x1, .i32⟩
  | .hbm, ⟨59, _⟩ => ⟨S330000x1, .i32⟩
  | .hbm, ⟨60, _⟩ => ⟨S330000x2, .i32⟩
  | .hbm, ⟨61, _⟩ => ⟨S10000x10000, .f32⟩
  | .hbm, ⟨62, _⟩ => ⟨S10000x32, .bf16⟩
  | .hbm, ⟨63, _⟩ => ⟨S10000x32, .f32⟩
  | .hbm, ⟨64, _⟩ => ⟨S10000x32, .bf16⟩
  | .hbm, ⟨65, _⟩ => ⟨S1x32, .f32⟩
  | .hbm, ⟨66, _⟩ => ⟨S10000x32, .f32⟩
  | .hbm, ⟨67, _⟩ => ⟨S10000x16, .f32⟩
  | .hbm, ⟨68, _⟩ => ⟨S10000x16, .bf16⟩
  | .hbm, ⟨69, _⟩ => ⟨S1x16, .f32⟩
  | .hbm, ⟨70, _⟩ => ⟨S10000x16, .f32⟩
  | .hbm, ⟨71, _⟩ => ⟨S200000x1, .i32⟩
  | .hbm, ⟨72, _⟩ => ⟨S200000, .i32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x16, .f32⟩
  | .hbm, ⟨82, _⟩ => ⟨S200000x1, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x16, .f32⟩
  | .hbm, ⟨93, _⟩ => ⟨S200000x32, .f32⟩
  | .hbm, ⟨94, _⟩ => ⟨S200000x1, .f32⟩
  | .hbm, ⟨95, _⟩ => ⟨S1x1, .f32⟩
  | .hbm, ⟨96, _⟩ => ⟨S200000x1, .f32⟩
  | .hbm, ⟨97, _⟩ => ⟨S200000x1, .f32⟩
  | .hbm, ⟨98, _⟩ => ⟨S200000x1, .f32⟩
  | .hbm, ⟨99, _⟩ => ⟨S200000x1, .f32⟩
  | .hbm, ⟨100, _⟩ => ⟨S_, .f32⟩
  | .hbm, ⟨101, _⟩ => ⟨S200000x1, .f32⟩
  | .hbm, ⟨102, _⟩ => ⟨S200000x1, .f32⟩
  | .hbm, ⟨103, _⟩ => ⟨S_, .f32⟩
  | .hbm, ⟨104, _⟩ => ⟨S200000x1, .f32⟩
  | .hbm, ⟨105, _⟩ => ⟨S200000x1, .f32⟩
  | .local _ .vmem, ⟨0, _⟩ => ⟨S200x10000, .f32⟩
  | .local _ .vmem, ⟨1, _⟩ => ⟨S200x10000, .f32⟩
  | .local _ .vmem, ⟨2, _⟩ => ⟨S10000x32, .bf16⟩
  | .local _ .vmem, ⟨3, _⟩ => ⟨S200x32, .f32⟩
  | .local _ .vmem, ⟨4, _⟩ => ⟨S200x32, .f32⟩
  | .local _ .vmem, ⟨5, _⟩ => ⟨S200x10000, .f32⟩
  | .local _ .vmem, ⟨6, _⟩ => ⟨S200x10000, .f32⟩
  | .local _ .vmem, ⟨7, _⟩ => ⟨S10000x32, .bf16⟩
  | .local _ .vmem, ⟨8, _⟩ => ⟨S1x32, .f32⟩
  | .local _ .vmem, ⟨9, _⟩ => ⟨S200x32, .f32⟩
  | .local _ .vmem, ⟨10, _⟩ => ⟨S200x32, .f32⟩
  | .local _ .vmem, ⟨11, _⟩ => ⟨S200x10000, .f32⟩
  | .local _ .vmem, ⟨12, _⟩ => ⟨S200x10000, .f32⟩
  | .local _ .vmem, ⟨13, _⟩ => ⟨S10000x16, .bf16⟩
  | .local _ .vmem, ⟨14, _⟩ => ⟨S1x16, .f32⟩
  | .local _ .vmem, ⟨15, _⟩ => ⟨S200x16, .f32⟩
  | .local _ .vmem, ⟨16, _⟩ => ⟨S200x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10000x10000 : S_.BroadcastsInDim S10000x10000 (![] : Fin 0 → Fin S10000x10000.rank)
  concatenates_S330000x1_S330000x1_S330000x2_d1 : Shape.Concatenates [S330000x1, S330000x1] S330000x2 1
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x32_S200x32_0_0 : ∀ a, (![0, 0] : Fin 2 → Nat) a + S200x32.size a ≤ S200x32.size a
  h_S200x32 : 0 < S200x32.numel
  shapeCasts_S32_S1x32 : S32.ShapeCasts S1x32
  shapeCasts_S200x10000_S200x10000 : S200x10000.ShapeCasts S200x10000
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x16_S200000x16_S200000x32_d1 : Shape.Concatenates [S200000x16, S200000x16] S200000x32 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10000x10000_S330000x2_S330000_n_01_01_1_wf : ScatterDims.WF S10000x10000 S330000x2 S330000 [] [0, 1] [0, 1] 1
  dot_S200x10000_S10000x32_S200x32_1_0_0_1_n_n_wf : DotDims.WF S200x10000 S10000x32 S200x32 [1] [0] [0] [1] [] []
  dot_S10000x32_S32x16_S10000x16_1_0_0_1_n_n_wf : DotDims.WF S10000x32 S32x16 S10000x16 [1] [0] [0] [1] [] []
  dot_S200x10000_S10000x16_S200x16_1_0_0_1_n_n_wf : DotDims.WF S200x10000 S10000x16 S200x16 [1] [0] [0] [1] [] []
  gather_S10000x16_S200000x1_S200000x16_1_0_n_n_0_1_116_wf : GatherDims.WF S10000x16 S200000x1 S200000x16 [1] [0] [] [0] [] 1 ![1, 16]
  dot_S200000x32_S32x1_S200000x1_1_0_0_1_n_n_wf : DotDims.WF S200000x32 S32x1 S200000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S10000x32.size a
  hwx0_1 : ∀ i : grid0.Coords, EltTy.bits .bf16 = 32 ∨ (Rect.block (s := S10000x32) S10000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S10000x32.size a
  hwx0_2 : ∀ i : grid0.Coords, EltTy.bits .f32 = 32 ∨ (Rect.block (s := S10000x32) S200x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x32.size a ≤ S10000x32.size a
  hwx1_3 : ∀ i : grid1.Coords, EltTy.bits .f32 = 32 ∨ (Rect.block (s := S10000x32) S200x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .bf16 = 32 ∨ (Rect.block (s := S10000x16) S10000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S10000x16.size a
  hwx2_3 : ∀ i : grid2.Coords, EltTy.bits .f32 = 32 ∨ (Rect.block (s := S10000x16) S200x16.size (cc2_transform_3 i) (hinb2_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x10000_S330000x2_S330000_n_01_01_1 : ScatterDims S10000x10000 S330000x2 S330000 where
  updateWindowDims := []
  insertedWindowDims := [0, 1]
  scatterDimsToOperandDims := [0, 1]
  indexVectorDim := 1
  wf := scatter_S10000x10000_S330000x2_S330000_n_01_01_1_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def gather_S10000x16_S200000x1_S200000x16_1_0_n_n_0_1_116 : GatherDims S10000x16 S200000x1 S200000x16 where
  offsetDims := [1]
  collapsedSliceDims := [0]
  operandBatchingDims := []
  startIndicesBatchingDims := []
  startIndexMap := [0]
  indexVectorDim := 1
  sliceSizes := ![1, 16]
  wf := gather_S10000x16_S200000x1_S200000x16_1_0_n_n_0_1_116_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S200x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S200x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x32 : Shape := ⟨2, ![330000, 32]⟩
abbrev S1x32 : Shape := ⟨2, ![1, 32]⟩
abbrev S10000x16 : Shape := ⟨2, ![10000, 16]⟩
abbrev S330000x16 : Shape := ⟨2, ![330000, 16]⟩
abbrev S1x16 : Shape := ⟨2, ![1, 16]⟩
abbrev S200000x1 : Shape := ⟨2, ![200000, 1]⟩
abbrev S200000 : Shape := ⟨1, ![200000]⟩
abbrev S200000x16 : Shape := ⟨2, ![200000, 16]⟩
abbrev S200000x32 : Shape := ⟨2, ![200000, 32]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S10000x10000, .f32⟩
  | 1 => ⟨S2x320000, .i32⟩
  | 2 => ⟨S200000x2, .i32⟩
  | 3 => ⟨S10000x32, .f32⟩
  | 4 => ⟨S32, .f32⟩
  | 5 => ⟨S32x16, .f32⟩
  | 6 => ⟨S16, .f32⟩
  | 7 => ⟨S32x1, .f32⟩
  | 8 => ⟨S1, .f32⟩
  | 9 => ⟨S10000, .i32⟩
  | 10 => ⟨S1x320000, .i32⟩
  | 11 => ⟨S320000, .i32⟩
  | 12 => ⟨S330000, .i32⟩
  | 13 => ⟨S1x320000, .i32⟩
  | 14 => ⟨S320000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S10000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S330000, .f32⟩
  | 42 => ⟨S10000x32, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000x32, .f32⟩
  | 52 => ⟨S330000x1, .f32⟩
  | 53 => ⟨S330000x32, .f32⟩
  | 54 => ⟨S330000x32, .f32⟩
  | 55 => ⟨S_, .f32⟩
  | 56 => ⟨S10000x32, .f32⟩
  | 57 => ⟨S330000x1, .i32⟩
  | 58 => ⟨S10000x32, .f32⟩
  | 59 => ⟨S1x32, .f32⟩
  | 60 => ⟨S10000x32, .f32⟩
  | 61 => ⟨S10000x32, .f32⟩
  | 62 => ⟨S_, .f32⟩
  | 63 => ⟨S10000x32, .f32⟩
  | 64 => ⟨S10000x32, .f32⟩
  | 65 => ⟨S10000, .i32⟩
  | 66 => ⟨S1x320000, .i32⟩
  | 67 => ⟨S320000, .i32⟩
  | 68 => ⟨S330000, .i32⟩
  | 69 => ⟨S1x320000, .i32⟩
  | 70 => ⟨S320000, .i32⟩
  | 71 => ⟨S330000, .i32⟩
  | 72 => ⟨S_, .f32⟩
  | 73 => ⟨S330000, .f32⟩
  | 74 => ⟨S_, .f32⟩
  | 75 => ⟨S10000, .f32⟩
  | 76 => ⟨S330000x1, .i32⟩
  | 77 => ⟨S10000, .f32⟩
  | 78 => ⟨S10000, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000, .f32⟩
  | 88 => ⟨S_, .i32⟩
  | 89 => ⟨S330000, .i32⟩
  | 90 => ⟨S330000, .i1⟩
  | 91 => ⟨S_, .i32⟩
  | 92 => ⟨S330000, .i32⟩
  | 93 => ⟨S330000, .i32⟩
  | 94 => ⟨S330000, .i32⟩
  | 95 => ⟨S330000x1, .i32⟩
  | 96 => ⟨S330000, .f32⟩
  | 97 => ⟨S330000, .f32⟩
  | 98 => ⟨S10000x16, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000x16, .f32⟩
  | 108 => ⟨S330000x1, .f32⟩
  | 109 => ⟨S330000x16, .f32⟩
  | 110 => ⟨S330000x16, .f32⟩
  | 111 => ⟨S_, .f32⟩
  | 112 => ⟨S10000x16, .f32⟩
  | 113 => ⟨S330000x1, .i32⟩
  | 114 => ⟨S10000x16, .f32⟩
  | 115 => ⟨S1x16, .f32⟩
  | 116 => ⟨S10000x16, .f32⟩
  | 117 => ⟨S10000x16, .f32⟩
  | 118 => ⟨S200000x1, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S10000x10000, .f32⟩

abbrev hbmTy0_1 (i : Nat) : BufTy := match i % 128 with
  | 0 => ⟨S200000x16, .f32⟩
  | 1 => ⟨S200000x1, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x16, .f32⟩
  | 12 => ⟨S200000x32, .f32⟩
  | 13 => ⟨S200000x1, .f32⟩
  | 14 => ⟨S1x1, .f32⟩
  | 15 => ⟨S200000x1, .f32⟩
  | 16 => ⟨S200000x1, .f32⟩
  | 17 => ⟨S200000x1, .f32⟩
  | 18 => ⟨S200000x1, .f32⟩
  | 19 => ⟨S_, .f32⟩
  | 20 => ⟨S200000x1, .f32⟩
  | 21 => ⟨S200000x1, .f32⟩
  | 22 => ⟨S_, .f32⟩
  | 23 => ⟨S200000x1, .f32⟩
  | 24 => ⟨S200000x1, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_16 : Ref sig .tc := ⟨.hbm, 120, rfl⟩
abbrev main_v91 : Ref sig .tc := ⟨.hbm, 121, rfl⟩
abbrev main_v92 : Ref sig .tc := ⟨.hbm, 122, rfl⟩
abbrev main_c_17 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_20 : Ref sig .tc := ⟨.hbm, 147, rfl⟩
abbrev main_v114 : Ref sig .tc := ⟨.hbm, 148, rfl⟩
abbrev main_v115 : Ref sig .tc := ⟨.hbm, 149, rfl⟩
abbrev main_cst_21 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x16_S200000x16_S200000x32_d1 : Shape.Concatenates [S200000x16, S200000x16] S200000x32 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x10000_S10000x32_S10000x32_1_0_0_1_n_n_wf : DotDims.WF S10000x10000 S10000x32 S10000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x16_S10000x16_1_0_0_1_n_n_wf : DotDims.WF S10000x32 S32x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  gather_S10000x16_S200000x1_S200000x16_1_0_n_n_0_1_116_wf : GatherDims.WF S10000x16 S200000x1 S200000x16 [1] [0] [] [0] [] 1 ![1, 16]
  dot_S200000x32_S32x1_S200000x1_1_0_0_1_n_n_wf : DotDims.WF S200000x32 S32x1 S200000x1 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def gather_S10000x16_S200000x1_S200000x16_1_0_n_n_0_1_116 : GatherDims S10000x16 S200000x1 S200000x16 where
  offsetDims := [1]
  collapsedSliceDims := [0]
  operandBatchingDims := []
  startIndicesBatchingDims := []
  startIndexMap := [0]
  indexVectorDim := 1
  sliceSizes := ![1, 16]
  wf := gather_S10000x16_S200000x1_S200000x16_1_0_n_n_0_1_116_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.KernelRun.lean ====
/-
  The idealized kernel's whole run, with its result named.

  The program is three pipelined matrix products among stretches of host operations. Launched from any memory it
  terminates, and every buffer the host side can see then holds what the last stretch of host operations leaves: the
  result array in particular, and the nine argument arrays as they were launched. What the last stretch leaves is a
  fold through the program, boundary by boundary: host operations applied to the contents before them, and after a
  pipelined product its output array at what the write-backs of all grid points leave.
-/
import proofs.«123918_j62182536511521_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution terminates without a fault; the result array ends at the last boundary's contents
    and every argument array as launched. -/
theorem run_result : θ_run defs (onTc (τ := τ) (main (F := F))) ⟨m, fun _ => 0, ρ⟩ (fun r => ∀ c : Dev nD,
      r.2.mem ((c.tc : Thread nD τ).loc main_v79) = W7 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v79 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Whole

end
-- ==== Proof.Spec.lean ====
/-
  The three matrix computations of a two-layer graph convolution, as functions of whole arrays on the extended reals.

  `prod a b` is the matrix product: entry (p, q) is the sum over k of a (p, k) * b (k, q). `affine a b v` adds to every
  row of the product the one-row matrix v. `reluAffine a b v` is the entrywise maximum of that with the value of the
  zero word.
-/
import Idealize.ShloMosaic.PureOps.Ideal
import Idealize.ShloMosaic.Lib.ValueIdx

noncomputable section

namespace Cert.Spec

open Idealize.ShloMosaic Idealize.ShloMosaic.ValueIdx

variable {N K C : ℕ}

/-- The row coordinate of a matrix index, as a number below the row count. -/
abbrev rowOf (i : (⟨2, ![N, C]⟩ : Shape).Idx) : Fin N := ⟨(i 0).val, (i 0).isLt⟩
/-- The column coordinate of a matrix index. -/
abbrev colOf (i : (⟨2, ![N, C]⟩ : Shape).Idx) : Fin C := ⟨(i 1).val, (i 1).isLt⟩

theorem rowOf_ix2 (p : Fin N) (q : Fin C) : rowOf (ix2 p q) = p := rfl
theorem colOf_ix2 (p : Fin N) (q : Fin C) : colOf (ix2 p q) = q := rfl

/-- The matrix product of an [N, K] and a [K, C] matrix. -/
def prod (a : (⟨2, ![N, K]⟩ : Shape).Idx → EReal) (b : (⟨2, ![K, C]⟩ : Shape).Idx → EReal) :
    (⟨2, ![N, C]⟩ : Shape).Idx → EReal :=
  fun i => ∑ k : Fin K, a (ix2 (rowOf i) k) * b (ix2 k (colOf i))

/-- The product with a one-row matrix added to every row. -/
def affine (a : (⟨2, ![N, K]⟩ : Shape).Idx → EReal) (b : (⟨2, ![K, C]⟩ : Shape).Idx → EReal)
    (v : (⟨2, ![1, C]⟩ : Shape).Idx → EReal) : (⟨2, ![N, C]⟩ : Shape).Idx → EReal :=
  fun i => prod a b i + v (ix2 0 (colOf i))

/-- The entrywise maximum of that with the value of the zero word. -/
def reluAffine (a : (⟨2, ![N, K]⟩ : Shape).Idx → EReal) (b : (⟨2, ![K, C]⟩ : Shape).Idx → EReal)
    (v : (⟨2, ![1, C]⟩ : Shape).Idx → EReal) : (⟨2, ![N, C]⟩ : Shape).Idx → EReal :=
  fun i => max (affine a b v i) (Ideal.ofBits .f32 0x00000000#32)

theorem prod_ix2 (a : (⟨2, ![N, K]⟩ : Shape).Idx → EReal) (b : (⟨2, ![K, C]⟩ : Shape).Idx → EReal) (p : Fin N) (q : Fin C) :
    prod a b (ix2 p q) = ∑ k : Fin K, a (ix2 p k) * b (ix2 k q) := rfl

theorem affine_ix2 (a : (⟨2, ![N, K]⟩ : Shape).Idx → EReal) (b : (⟨2, ![K, C]⟩ : Shape).Idx → EReal)
    (v : (⟨2, ![1, C]⟩ : Shape).Idx → EReal) (p : Fin N) (q : Fin C) :
    affine a b v (ix2 p q) = (∑ k : Fin K, a (ix2 p k) * b (ix2 k q)) + v (ix2 0 q) := rfl

end Cert.Spec

end
-- ==== Proof.KernelHost0.lean ====
/-
  The host operations before the first pipelined product, read back: the dense normalized adjacency array and the
  weight matrix in the narrow float format; and the buffers no host operation and no pipelined product writes, which
  keep their launch contents through the whole program.

  The adjacency array is one accumulating scatter of the edge weights into a zero [10000, 10000] array through the
  two-column array (destination word, source word), both wrapped; the weights, the wrapped words and the degree
  normalization are the same operations the reference applies, so they are named by the reference's own stage
  functions.
-/
import proofs.«123918_j62182536511521_2_alg».proof.Proof.Gen.KernelIdeal.Frame
import proofs.«123918_j62182536511521_2_alg».proof.Proof.Gen.ReferenceIdeal.Read
import proofs.«123918_j62182536511521_2_alg».proof.Proof.Spec
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-- The dense adjacency array as the host operations build it from the edge-index argument. -/
def adjacency (x1 : (⟨S2x320000, .i32⟩ : BufTy).Contents (Elt Ideal)) : S10000x10000.Idx → EReal :=
  Host.scatterAdd (F := Ideal) scatter_S10000x10000_S330000x2_S330000_n_01_01_1
    (broadcastInDim S10000x10000 ![] Facts₀.bcast_S_S10000x10000 (constant S_ .f32 0x00000000#32))
    (concatenate S330000x2 1
      [⟨S330000x1, broadcastInDim S330000x1 ![0] Facts₀.bcast_S330000_S330000x1_0 (Cert.ReferenceIdeal.Read.val_main_v23 (F := Ideal) x1)⟩,
       ⟨S330000x1, broadcastInDim S330000x1 ![0] Facts₀.bcast_S330000_S330000x1_0 (Cert.ReferenceIdeal.Read.val_main_v16 (F := Ideal) x1)⟩]
      Facts₀.concatenates_S330000x1_S330000x1_S330000x2_d1)
    (Cert.ReferenceIdeal.Read.val_main_v26 (F := Ideal) x1)

set_option maxHeartbeats 4000000 in
/-- When the first product is entered, the adjacency buffer holds the adjacency array of the edge-index argument. -/
theorem W1_v41 : (W1 m ρ c (Proc.devRef .tc main_v41) : S10000x10000.Idx → EReal) = adjacency (m ((c : Thread nD τ).loc main_arg1)) := by
  show StableHlo.after hostOps0 (W0 m ρ c) (Proc.devRef .tc main_v41) = _
  after_results_simp <;> rfl

set_option maxHeartbeats 4000000 in
/-- … and the weight buffer holds the first weight matrix in the narrow format. -/
theorem W1_v42 : (W1 m ρ c (Proc.devRef .tc main_v42) : S10000x32.Idx → EReal)
    = truncf (F := Ideal) (s := S10000x32) .bf16 (m ((c : Thread nD τ).loc main_arg3)) Facts₀.bitsLt_bf16_f32 := by
  show StableHlo.after hostOps0 (W0 m ρ c) (Proc.devRef .tc main_v42) = _
  after_results_simp <;> rfl

/-- No operation of a stretch of host operations writes the buffer: decided operation by operation. -/
macro "not_written " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer the first stretch does not write holds its launch contents when the first product is entered. -/
theorem kept_W1 (b : Ref sig .tc) (h0 : ∀ op ∈ (hostOps0 : List (HloOp τ sig (Elt Ideal))), (Proc.devRef .tc b : DevRef τ sig) ∉ op.writes) : W1 m ρ c (Proc.devRef .tc b) = m ((c : Thread nD τ).loc b) :=
  StableHlo.after_of_forall_not_mem _ _ h0

/-- … and after the first product, if it is none of that product's arrays; -/
theorem kept_W2 (b : Ref sig .tc) (h0 : ∀ op ∈ (hostOps0 : List (HloOp τ sig (Elt Ideal))), (Proc.devRef .tc b : DevRef τ sig) ∉ op.writes) (n0 : ∀ w, Pipeline.arrRef spec0 w ≠ b) : W2 m ρ c (Proc.devRef .tc b) = m ((c : Thread nD τ).loc b) :=
  (W2_of_ne m ρ c b n0).trans (kept_W1 m ρ c b h0)

/-- … and after the second, -/
theorem kept_W4 (b : Ref sig .tc) (h0 : ∀ op ∈ (hostOps0 : List (HloOp τ sig (Elt Ideal))), (Proc.devRef .tc b : DevRef τ sig) ∉ op.writes) (n0 : ∀ w, Pipeline.arrRef spec0 w ≠ b) (h1 : ∀ op ∈ (hostOps1 : List (HloOp τ sig (Elt Ideal))), (Proc.devRef .tc b : DevRef τ sig) ∉ op.writes) (n1 : ∀ w, Pipeline.arrRef spec1 w ≠ b) : W4 m ρ c (Proc.devRef .tc b) = m ((c : Thread nD τ).loc b) :=
  (W4_of_ne m ρ c b n1).trans ((StableHlo.after_of_forall_not_mem _ _ h1).trans (kept_W2 m ρ c b h0 n0))

/-- … and after the third. -/
theorem kept_W6 (b : Ref sig .tc) (h0 : ∀ op ∈ (hostOps0 : List (HloOp τ sig (Elt Ideal))), (Proc.devRef .tc b : DevRef τ sig) ∉ op.writes) (n0 : ∀ w, Pipeline.arrRef spec0 w ≠ b) (h1 : ∀ op ∈ (hostOps1 : List (HloOp τ sig (Elt Ideal))), (Proc.devRef .tc b : DevRef τ sig) ∉ op.writes) (n1 : ∀ w, Pipeline.arrRef spec1 w ≠ b) (h2 : ∀ op ∈ (hostOps2 : List (HloOp τ sig (Elt Ideal))), (Proc.devRef .tc b : DevRef τ sig) ∉ op.writes) (n2 : ∀ w, Pipeline.arrRef spec2 w ≠ b) : W6 m ρ c (Proc.devRef .tc b) = m ((c : Thread nD τ).loc b) :=
  (W6_of_ne m ρ c b n2).trans ((StableHlo.after_of_forall_not_mem _ _ h2).trans (kept_W4 m ρ c b h0 n0 h1 n1))

end Cert.KernelIdeal.Whole

end
-- ==== Proof.Head.lean ====
/-
  The network's head, shared by both programs: from the [10000, 16] node embeddings h, for every candidate pair the two
  embeddings its index words name, side by side, through one linear map with a bias and the logistic function
  1 / (1 + exp (−z)). Both programs apply these operations to their own h; it is carried here as one function of h,
  never opened.
-/
import proofs.«123918_j62182536511521_2_alg».proof.Proof.Gen.ReferenceIdeal.Read

noncomputable section

namespace Cert.Bridge

open Idealize.ShloMosaic Cert.ReferenceIdeal Cert.ReferenceIdeal.Read

/-- The head as a function of the node embeddings, the pair indices, and the linear map's weights and bias. -/
def head (h : (⟨S10000x16, .f32⟩ : BufTy).Contents (Elt Ideal)) (x2 : (⟨S200000x2, .i32⟩ : BufTy).Contents (Elt Ideal))
    (x7 : (⟨S32x1, .f32⟩ : BufTy).Contents (Elt Ideal)) (x8 : (⟨S1, .f32⟩ : BufTy).Contents (Elt Ideal)) :
    (⟨S200000x1, .f32⟩ : BufTy).Contents (Elt Ideal) :=
  Host.divf (F := Ideal) (val_main_v116 (F := Ideal))
    (addf (F := Ideal) (val_main_v114 (F := Ideal))
      (Host.exp (F := Ideal) (Host.negf (F := Ideal) (addf (F := Ideal)
        (Host.dotGeneral (F := Ideal) (φ₁ := .f32) (φ₂ := .f32) dot_S200000x32_S32x1_S200000x1_1_0_0_1_n_n none
          ((concatenate S200000x32 1
            [⟨S200000x16, (Host.gather gather_S10000x16_S200000x1_S200000x16_1_0_n_n_0_1_116 h (val_main_v96 (F := Ideal) x2) : (⟨S200000x16, .f32⟩ : BufTy).Contents (Elt Ideal))⟩,
             ⟨S200000x16, (Host.gather gather_S10000x16_S200000x1_S200000x16_1_0_n_n_0_1_116 h (val_main_v105 (F := Ideal) x2) : (⟨S200000x16, .f32⟩ : BufTy).Contents (Elt Ideal))⟩]
            Facts₀.concatenates_S200000x16_S200000x16_S200000x32_d1) : (⟨S200000x32, .f32⟩ : BufTy).Contents (Elt Ideal)) x7)
        (val_main_v110 (F := Ideal) x8)))))

set_option maxRecDepth 16384 in
/-- The reference's result is the head of its second layer's output. -/
theorem ref_result_eq (x0 : (⟨S10000x10000, .f32⟩ : BufTy).Contents (Elt Ideal)) (x1 : (⟨S2x320000, .i32⟩ : BufTy).Contents (Elt Ideal))
    (x2 : (⟨S200000x2, .i32⟩ : BufTy).Contents (Elt Ideal)) (x3 : (⟨S10000x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S32x1, .f32⟩ : BufTy).Contents (Elt Ideal))
    (x8 : (⟨S1, .f32⟩ : BufTy).Contents (Elt Ideal)) :
    val_main_v117 (F := Ideal) x0 x1 x2 x3 x4 x5 x6 x7 x8 = head (val_main_v88 (F := Ideal) x0 x1 x3 x4 x5 x6) x2 x7 x8 := rfl

end Cert.Bridge

end
-- ==== Proof.KernelHead.lean ====
/-
  The host operations after the last pipelined product, read back: the result array is the network's head applied to
  the node embeddings the last product left, the pair indices, and the head's weights and bias. The kernel's program
  spells the head with its own shape names; operation by operation it is the head the reference applies.
-/
import proofs.«123918_j62182536511521_2_alg».proof.Proof.Gen.KernelIdeal.Frame
import proofs.«123918_j62182536511521_2_alg».proof.Proof.Head
import proofs.«123918_j62182536511521_2_alg».proof.Proof.Spec
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-- The pair-index column c of the pair argument, wrapped, as a one-column matrix of index words. -/
def pairWords0 (x2 : (⟨S200000x2, .i32⟩ : BufTy).Contents (Elt Ideal)) : (⟨S200000x1, .i32⟩ : BufTy).Contents (Elt Ideal) :=
  broadcastInDim S200000x1 ![0] Facts₀.bcast_S200000_S200000x1_0
    (select
      (cmpi .slt (shapeCast _ (extractStridedSlice S200000x1 ![0, 0] x2 Facts₀.slices_S200000x2_S200000x1_0_0) Facts₀.shapeCasts_S200000x1_S200000)
        (broadcastInDim S200000 ![] Facts₀.bcast_S_S200000 (constantI S_ 32 0#32)))
      (addi (shapeCast _ (extractStridedSlice S200000x1 ![0, 0] x2 Facts₀.slices_S200000x2_S200000x1_0_0) Facts₀.shapeCasts_S200000x1_S200000)
        (broadcastInDim S200000 ![] Facts₀.bcast_S_S200000 (constantI S_ 32 10000#32)))
      (shapeCast _ (extractStridedSlice S200000x1 ![0, 0] x2 Facts₀.slices_S200000x2_S200000x1_0_0) Facts₀.shapeCasts_S200000x1_S200000))

def pairWords1 (x2 : (⟨S200000x2, .i32⟩ : BufTy).Contents (Elt Ideal)) : (⟨S200000x1, .i32⟩ : BufTy).Contents (Elt Ideal) :=
  broadcastInDim S200000x1 ![0] Facts₀.bcast_S200000_S200000x1_0
    (select
      (cmpi .slt (shapeCast _ (extractStridedSlice S200000x1 ![0, 1] x2 Facts₀.slices_S200000x2_S200000x1_0_1) Facts₀.shapeCasts_S200000x1_S200000)
        (broadcastInDim S200000 ![] Facts₀.bcast_S_S200000 (constantI S_ 32 0#32)))
      (addi (shapeCast _ (extractStridedSlice S200000x1 ![0, 1] x2 Facts₀.slices_S200000x2_S200000x1_0_1) Facts₀.shapeCasts_S200000x1_S200000)
        (broadcastInDim S200000 ![] Facts₀.bcast_S_S200000 (constantI S_ 32 10000#32)))
      (shapeCast _ (extractStridedSlice S200000x1 ![0, 1] x2 Facts₀.slices_S200000x2_S200000x1_0_1) Facts₀.shapeCasts_S200000x1_S200000))

/-- The head as the kernel's program spells it. -/
def headK (h : (⟨S10000x16, .f32⟩ : BufTy).Contents (Elt Ideal)) (x2 : (⟨S200000x2, .i32⟩ : BufTy).Contents (Elt Ideal))
    (x7 : (⟨S32x1, .f32⟩ : BufTy).Contents (Elt Ideal)) (x8 : (⟨S1, .f32⟩ : BufTy).Contents (Elt Ideal)) :
    (⟨S200000x1, .f32⟩ : BufTy).Contents (Elt Ideal) :=
  Host.divf (F := Ideal) (broadcastInDim S200000x1 ![] Facts₀.bcast_S_S200000x1 (constant (F := Ideal) S_ .f32 0x3F800000#32))
    (addf (F := Ideal) (broadcastInDim S200000x1 ![] Facts₀.bcast_S_S200000x1 (constant (F := Ideal) S_ .f32 0x3F800000#32))
      (Host.exp (F := Ideal) (Host.negf (F := Ideal) (addf (F := Ideal)
        (Host.dotGeneral (F := Ideal) (φ₁ := .f32) (φ₂ := .f32) dot_S200000x32_S32x1_S200000x1_1_0_0_1_n_n none
          ((concatenate S200000x32 1
            [⟨S200000x16, (Host.gather gather_S10000x16_S200000x1_S200000x16_1_0_n_n_0_1_116 h (pairWords0 x2) : (⟨S200000x16, .f32⟩ : BufTy).Contents (Elt Ideal))⟩,
             ⟨S200000x16, (Host.gather gather_S10000x16_S200000x1_S200000x16_1_0_n_n_0_1_116 h (pairWords1 x2) : (⟨S200000x16, .f32⟩ : BufTy).Contents (Elt Ideal))⟩]
            Facts₀.concatenates_S200000x16_S200000x16_S200000x32_d1) : (⟨S200000x32, .f32⟩ : BufTy).Contents (Elt Ideal)) x7)
        (broadcastInDim S200000x1 ![0, 1] Facts₀.bcast_S1x1_S200000x1_0_1 (broadcastInDim S1x1 ![1] Facts₀.bcast_S1_S1x1_1 x8))))))

set_option maxHeartbeats 4000000 in
/-- The last stretch of host operations from any contents: the result buffer ends at the head of what the node
    embedding buffer, the pair argument and the head's weights and bias held. -/
theorem host3_result (V : Valuation τ sig (Elt Ideal)) :
    (StableHlo.after hostOps3 V (Proc.devRef .tc main_v79) : S200000x1.Idx → EReal)
    = headK (V (Proc.devRef .tc main_v50)) (V (Proc.devRef .tc main_arg2)) (V (Proc.devRef .tc main_arg7)) (V (Proc.devRef .tc main_arg8)) := by
  after_results_simp <;> rfl

/-- The kernel's spelling of the head is the reference's. -/
theorem headK_eq (h : (⟨S10000x16, .f32⟩ : BufTy).Contents (Elt Ideal)) (x2 : (⟨S200000x2, .i32⟩ : BufTy).Contents (Elt Ideal))
    (x7 : (⟨S32x1, .f32⟩ : BufTy).Contents (Elt Ideal)) (x8 : (⟨S1, .f32⟩ : BufTy).Contents (Elt Ideal)) :
    headK h x2 x7 x8 = Cert.Bridge.head h x2 x7 x8 := by
  have e0 : pairWords0 x2 = Cert.ReferenceIdeal.Read.val_main_v96 (F := Ideal) x2 := rfl
  have e1 : pairWords1 x2 = Cert.ReferenceIdeal.Read.val_main_v105 (F := Ideal) x2 := rfl
  unfold headK Cert.Bridge.head
  rw [e0, e1]
  rfl

/-- The result array at the program's end. -/
theorem W7_v79 : (W7 m ρ c (Proc.devRef .tc main_v79) : S200000x1.Idx → EReal)
    = Cert.Bridge.head (W6 m ρ c (Proc.devRef .tc main_v50)) (W6 m ρ c (Proc.devRef .tc main_arg2))
        (W6 m ρ c (Proc.devRef .tc main_arg7)) (W6 m ρ c (Proc.devRef .tc main_arg8)) :=
  (host3_result (W6 m ρ c)).trans (headK_eq _ _ _ _)

end Cert.KernelIdeal.Whole

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Region0.lean ====
/-
  The first pipelined product: the whole [10000, 32] output array after the run.

  Grid point t multiplies rows 200·t … 200·t + 199 of the left array by the whole right array and writes the
  200 × 32 result back as block t of the output. An entry of a block is a sum over the 10000 columns of the left rows
  against the right array's column, so every block is the restriction of ONE function of the two whole arrays — their
  matrix product — and the fifty blocks tile the output. Hence the output array ends as the product of the arrays the
  region found at entry.
-/
import proofs.«123918_j62182536511521_2_alg».proof.Proof.Gen.KernelIdeal.Frame
import proofs.«123918_j62182536511521_2_alg».proof.Proof.Spec
import proofs.«123918_j62182536511521_2_alg».proof.Proof.LibMatmul2
import Idealize.ShloMosaic.Lib.Pipeline.Value
import Idealize.ShloMosaic.Lib.ValueLayout

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic at an entry of its block: the row of the left block against the column of the right
    block, the change of float format being the identity on the extended reals. -/
theorem block_product (x0 : Vec Ideal S200x10000 .f32) (x1 : Vec Ideal S10000x32 .bf16) (j : S200x32.Idx) :
    k0_pay1 x0 x1 j = ∑ k : Fin 10000, x0 (ix2 (rowOf j) k) * x1 (ix2 k (colOf j)) := by
  obtain ⟨p, q, rfl⟩ : ∃ (p : Fin 200) (q : Fin 32), j = ix2 p q := ⟨j 0, j 1, eq_ix2 j⟩
  unfold k0_pay1
  refine (Cert.Lib.matmul2_zero_apply (A := 200) (K := 10000) (B := 32) Facts₀.dot_S200x10000_S10000x32_S200x32_1_0_0_1_n_n_wf
    (truncf .bf16 x0 Facts₀.bitsLt_bf16_f32) (shapeCast S10000x32 x1 Facts₀.shapeCasts_S10000x32_S10000x32) p q).trans ?_
  refine Finset.sum_congr rfl fun k _ => ?_
  rw [shapeCast_self]
  rfl

/-- The printed index maps over the grid: the left window moves with the output window down the rows and stays at
    column block 0; the right window stays put. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block of the output is some grid point's. -/
theorem idx_onto : ∀ (q0 : Fin 50), ∃ t : Fin cfg0.N, win0_2.index t = ![q0.val, 0] :=
  (by decide +kernel : ∀ (q0 : Fin 50), ∃ t : Fin grid0.N, win0_2.index t = ![q0.val, 0])

/-- What grid point t writes back is block t of the product of the two arrays as the region found them. -/
theorem flushed_eq (c : Dev nD) (t : Fin cfg0.N) :
    (dat0 V c).flushed 2 t = ((cfg0.win 2).blk t).view.read (Elt Ideal) (prod (V c main_arg0) (V c main_v42)) := by
  show (cfg0.win 2).cut (grid0.coords t) ((dat0 V c).after 2 t) = _
  rw [after0_2]
  unfold out0_2
  rw [View.canon_unit_zero hz]
  simp only [View.ld_unit_zero (S := S200x10000) hz, View.ld_unit_zero (S := S10000x32) hz]
  obtain ⟨e0, e1, e2, e3, e4, e5⟩ := idx_facts t
  funext j
  refine (block_product (iblk0 V c 0 t) (iblk0 V c 1 t) j).trans ?_
  show _ = prod (V c main_arg0) (V c main_v42) (((cfg0.win 2).blk t).view.emb j)
  unfold prod
  refine Finset.sum_congr rfl fun k _ => ?_
  have h0 : ((cfg0.win 0).blk t).view.emb (ix2 (rowOf j) k) = ix2 (rowOf (((cfg0.win 2).blk t).view.emb j)) k := by
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  have h1 : ((cfg0.win 1).blk t).view.emb (ix2 k (colOf j)) = ix2 k (colOf (((cfg0.win 2).blk t).view.emb j)) := by
    funext a; apply Fin.ext
    match a with
    | ⟨0, _⟩ => show win0_1.index t (0 : Fin 2) * 10000 + 1 * k.val = k.val; omega
    | ⟨1, _⟩ => show win0_1.index t (1 : Fin 2) * 32 + 1 * (j 1).val = win0_2.index t (1 : Fin 2) * 32 + 1 * (j 1).val; omega
  congr 1
  · exact congrArg (V c main_arg0) h0
  · exact congrArg (V c main_v42) h1

/-- An index of the output is in grid point t's block iff each coordinate is in the block's range. -/
theorem mem_blk (t : Fin cfg0.N) (i : S10000x32.Idx) :
    i ∈ ((cfg0.win 2).blk t).view.set ↔ ∀ a : Fin 2, win0_2.index t a * S200x32.size a ≤ (i a).val ∧ (i a).val < win0_2.index t a * S200x32.size a + S200x32.size a := by
  show i ∈ ((View.whole main_v43).slice (win0_2.rect t)).set ↔ _
  rw [View.set_slice_whole, Rect.mem_set_unit]
  exact Iff.rfl

/-- Row r of the output lies in the block of the grid point that handles row block r / 200. -/
theorem cover (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  obtain ⟨t, ht⟩ := idx_onto ⟨(i 0).val / 200, by omega⟩
  have q0 : win0_2.index t (0 : Fin 2) = (i 0).val / 200 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 32 ≤ (i 1).val ∧ (i 1).val < win0_2.index t (1 : Fin 2) * 32 + 32; omega

/-- The output array after the run is the product of the arrays the region found. -/
theorem final (c : Dev nD) : (dat0 V c).arrAt 2 cfg0.N = prod (V c main_arg0) (V c main_v42) :=
  (dat0 V c).arrAt_eq_of_cover 2 (prod (V c main_arg0) (V c main_v42)) (fun t _ => flushed_eq V c t) cover

end Cert.KernelIdeal.Region0

end
-- ==== Proof.Region1.lean ====
/-
  The first aggregation: the whole [10000, 32] output array after the run.

  Grid point t multiplies rows 200·t … 200·t + 199 of the dense adjacency array by the whole feature array, adds the
  bias row to every row, takes the entrywise maximum with zero and writes the 200 × 32 result back as block t. Every
  block is the restriction of one function of the three whole arrays, and the fifty blocks tile the output.
-/
import proofs.«123918_j62182536511521_2_alg».proof.Proof.Gen.KernelIdeal.Frame
import proofs.«123918_j62182536511521_2_alg».proof.Proof.Spec
import proofs.«123918_j62182536511521_2_alg».proof.Proof.LibMatmul2
import Idealize.ShloMosaic.Lib.Pipeline.Value
import Idealize.ShloMosaic.Lib.ValueLayout

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the left block's row with the right block's column into the zero accumulator, plus the bias row's
    entry: the change of float format and the casts between equal shapes are the identity. -/
theorem block_sum (x0 : Vec Ideal S200x10000 .f32) (x1 : Vec Ideal S10000x32 .bf16) (x2 : Vec Ideal S1x32 .f32) (p : Fin 200) (q : Fin 32) :
    matmul (F := Ideal) (φ₂ := .bf16) dot_S200x10000_S10000x32_S200x32_1_0_0_1_n_n none (truncf .bf16 (shapeCast S200x10000 x0 Facts₀.shapeCasts_S200x10000_S200x10000) Facts₀.bitsLt_bf16_f32) (shapeCast S10000x32 x1 Facts₀.shapeCasts_S10000x32_S10000x32) (constant S200x32 .f32 0x00000000#32) (ix2 p q)
      + broadcastTo S200x32 (shapeCast S1x32 x2 Facts₀.shapeCasts_S1x32_S1x32) Facts₀.broadcasts_S1x32_S200x32 (ix2 p q)
    = (∑ k : Fin 10000, x0 (ix2 p k) * x1 (ix2 k q)) + x2 (ix2 (0 : Fin 1) q) := by
  refine congrArg₂ (· + ·) ?_ ?_
  · refine (Cert.Lib.matmul2_zero_apply (A := 200) (K := 10000) (B := 32) Facts₀.dot_S200x10000_S10000x32_S200x32_1_0_0_1_n_n_wf
      (truncf .bf16 (shapeCast S200x10000 x0 Facts₀.shapeCasts_S200x10000_S200x10000) Facts₀.bitsLt_bf16_f32) (shapeCast S10000x32 x1 Facts₀.shapeCasts_S10000x32_S10000x32) p q).trans ?_
    refine Finset.sum_congr rfl fun k _ => ?_
    rw [shapeCast_self, shapeCast_self]
    rfl
  · refine (broadcastTo_1b_ab_apply (a := 200) (b := 32) (shapeCast S1x32 x2 Facts₀.shapeCasts_S1x32_S1x32) Facts₀.broadcasts_S1x32_S200x32 p q).trans ?_
    rw [shapeCast_self]

/-- One grid point's arithmetic at an entry of its block. -/
theorem block_value (x0 : Vec Ideal S200x10000 .f32) (x1 : Vec Ideal S10000x32 .bf16) (x2 : Vec Ideal S1x32 .f32) (j : S200x32.Idx) :
    k1_pay1 x0 x1 x2 j = max ((∑ k : Fin 10000, x0 (ix2 (rowOf j) k) * x1 (ix2 k (colOf j))) + x2 (ix2 (0 : Fin 1) (colOf j))) (Ideal.ofBits .f32 0x00000000#32) := by
  obtain ⟨p, q, rfl⟩ : ∃ (p : Fin 200) (q : Fin 32), j = ix2 p q := ⟨j 0, j 1, eq_ix2 j⟩
  unfold k1_pay1
  show max (matmul (F := Ideal) (φ₂ := .bf16) dot_S200x10000_S10000x32_S200x32_1_0_0_1_n_n none (truncf .bf16 (shapeCast S200x10000 x0 Facts₀.shapeCasts_S200x10000_S200x10000) Facts₀.bitsLt_bf16_f32) (shapeCast S10000x32 x1 Facts₀.shapeCasts_S10000x32_S10000x32) (constant S200x32 .f32 0x00000000#32) (ix2 p q)
      + broadcastTo S200x32 (shapeCast S1x32 x2 Facts₀.shapeCasts_S1x32_S1x32) Facts₀.broadcasts_S1x32_S200x32 (ix2 p q)) (Ideal.ofBits .f32 0x00000000#32) = _
  congr 1
  exact block_sum x0 x1 x2 p q

set_option maxHeartbeats 4000000 in
/-- The printed index maps over the grid: the left window moves with the output window down the rows and stays at
    column block 0; the right window and the bias row stay put. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 49 :=
  (by decide +kernel : ∀ t : Fin grid1.N, _)

/-- Every row block of the output is some grid point's. -/
theorem idx_onto : ∀ (q0 : Fin 50), ∃ t : Fin cfg1.N, win1_3.index t = ![q0.val, 0] :=
  (by decide +kernel : ∀ (q0 : Fin 50), ∃ t : Fin grid1.N, win1_3.index t = ![q0.val, 0])

set_option maxHeartbeats 4000000 in
/-- What grid point t writes back is block t of one function of the three arrays as the region found them. -/
theorem flushed_eq (c : Dev nD) (t : Fin cfg1.N) :
    (dat1 V c).flushed 3 t = ((cfg1.win 3).blk t).view.read (Elt Ideal) (reluAffine (V c main_v41) (V c main_v44) (V c main_v45)) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x32) hz, View.ld_unit_zero (S := S1x32) hz]
  obtain ⟨e0, e1, e2, e3, e4, e5, e6, e7⟩ := idx_facts t
  funext j
  refine (block_value (iblk1 V c 0 t) (iblk1 V c 1 t) (iblk1 V c 2 t) j).trans ?_
  show _ = reluAffine (V c main_v41) (V c main_v44) (V c main_v45) (((cfg1.win 3).blk t).view.emb j)
  unfold reluAffine affine prod
  have h2 : ((cfg1.win 2).blk t).view.emb (ix2 (0 : Fin 1) (colOf j)) = ix2 (0 : Fin 1) (colOf (((cfg1.win 3).blk t).view.emb j)) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  congr 1
  congr 1
  · refine Finset.sum_congr rfl fun k _ => ?_
    have h0 : ((cfg1.win 0).blk t).view.emb (ix2 (rowOf j) k) = ix2 (rowOf (((cfg1.win 3).blk t).view.emb j)) k := by
      funext a; apply Fin.ext
      match a with
      | ⟨0, _⟩ => show win1_0.index t (0 : Fin 2) * 200 + 1 * (j 0).val = win1_3.index t (0 : Fin 2) * 200 + 1 * (j 0).val; omega
      | ⟨1, _⟩ => show win1_0.index t (1 : Fin 2) * 10000 + 1 * k.val = k.val; omega
    have h1 : ((cfg1.win 1).blk t).view.emb (ix2 k (colOf j)) = ix2 k (colOf (((cfg1.win 3).blk t).view.emb j)) := by
      funext a; apply Fin.ext
      match a with
      | ⟨0, _⟩ => show win1_1.index t (0 : Fin 2) * 10000 + 1 * k.val = k.val; omega
      | ⟨1, _⟩ => show win1_1.index t (1 : Fin 2) * 32 + 1 * (j 1).val = win1_3.index t (1 : Fin 2) * 32 + 1 * (j 1).val; omega
    congr 1
    · exact congrArg (V c main_v41) h0
    · exact congrArg (V c main_v44) h1
  · exact congrArg (V c main_v45) h2

/-- An index of the output is in grid point t's block iff each coordinate is in the block's range. -/
theorem mem_blk (t : Fin cfg1.N) (i : S10000x32.Idx) :
    i ∈ ((cfg1.win 3).blk t).view.set ↔ ∀ a : Fin 2, win1_3.index t a * S200x32.size a ≤ (i a).val ∧ (i a).val < win1_3.index t a * S200x32.size a + S200x32.size a := by
  show i ∈ ((View.whole main_v46).slice (win1_3.rect t)).set ↔ _
  rw [View.set_slice_whole, Rect.mem_set_unit]
  exact Iff.rfl

/-- Row r of the output lies in the block of the grid point that handles row block r / 200. -/
theorem cover (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  obtain ⟨t, ht⟩ := idx_onto ⟨(i 0).val / 200, by omega⟩
  have q0 : win1_3.index t (0 : Fin 2) = (i 0).val / 200 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 32 ≤ (i 1).val ∧ (i 1).val < win1_3.index t (1 : Fin 2) * 32 + 32; omega

/-- The output array after the run, as one function of the arrays the region found. -/
theorem final (c : Dev nD) : (dat1 V c).arrAt 3 cfg1.N = reluAffine (V c main_v41) (V c main_v44) (V c main_v45) :=
  (dat1 V c).arrAt_eq_of_cover 3 (reluAffine (V c main_v41) (V c main_v44) (V c main_v45)) (fun t _ => flushed_eq V c t) cover

end Cert.KernelIdeal.Region1

end
-- ==== Proof.Region2.lean ====
/-
  The second aggregation: the whole [10000, 16] output array after the run.

  Grid point t multiplies rows 200·t … 200·t + 199 of the dense adjacency array by the whole feature array, adds the
  bias row to every row and writes the 200 × 16 result back as block t. Every block is the restriction of one
  function of the three whole arrays, and the fifty blocks tile the output.
-/
import proofs.«123918_j62182536511521_2_alg».proof.Proof.Gen.KernelIdeal.Frame
import proofs.«123918_j62182536511521_2_alg».proof.Proof.Spec
import proofs.«123918_j62182536511521_2_alg».proof.Proof.LibMatmul2
import Idealize.ShloMosaic.Lib.Pipeline.Value
import Idealize.ShloMosaic.Lib.ValueLayout

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.ShloMosaic.Pipeline
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the left block's row with the right block's column into the zero accumulator, plus the bias row's
    entry: the change of float format and the casts between equal shapes are the identity. -/
theorem block_sum (x0 : Vec Ideal S200x10000 .f32) (x1 : Vec Ideal S10000x16 .bf16) (x2 : Vec Ideal S1x16 .f32) (p : Fin 200) (q : Fin 16) :
    matmul (F := Ideal) (φ₂ := .bf16) dot_S200x10000_S10000x16_S200x16_1_0_0_1_n_n none (truncf .bf16 (shapeCast S200x10000 x0 Facts₀.shapeCasts_S200x10000_S200x10000) Facts₀.bitsLt_bf16_f32) (shapeCast S10000x16 x1 Facts₀.shapeCasts_S10000x16_S10000x16) (constant S200x16 .f32 0x00000000#32) (ix2 p q)
      + broadcastTo S200x16 (shapeCast S1x16 x2 Facts₀.shapeCasts_S1x16_S1x16) Facts₀.broadcasts_S1x16_S200x16 (ix2 p q)
    = (∑ k : Fin 10000, x0 (ix2 p k) * x1 (ix2 k q)) + x2 (ix2 (0 : Fin 1) q) := by
  refine congrArg₂ (· + ·) ?_ ?_
  · refine (Cert.Lib.matmul2_zero_apply (A := 200) (K := 10000) (B := 16) Facts₀.dot_S200x10000_S10000x16_S200x16_1_0_0_1_n_n_wf
      (truncf .bf16 (shapeCast S200x10000 x0 Facts₀.shapeCasts_S200x10000_S200x10000) Facts₀.bitsLt_bf16_f32) (shapeCast S10000x16 x1 Facts₀.shapeCasts_S10000x16_S10000x16) p q).trans ?_
    refine Finset.sum_congr rfl fun k _ => ?_
    rw [shapeCast_self, shapeCast_self]
    rfl
  · refine (broadcastTo_1b_ab_apply (a := 200) (b := 16) (shapeCast S1x16 x2 Facts₀.shapeCasts_S1x16_S1x16) Facts₀.broadcasts_S1x16_S200x16 p q).trans ?_
    rw [shapeCast_self]

/-- One grid point's arithmetic at an entry of its block. -/
theorem block_value (x0 : Vec Ideal S200x10000 .f32) (x1 : Vec Ideal S10000x16 .bf16) (x2 : Vec Ideal S1x16 .f32) (j : S200x16.Idx) :
    k2_pay1 x0 x1 x2 j = (∑ k : Fin 10000, x0 (ix2 (rowOf j) k) * x1 (ix2 k (colOf j))) + x2 (ix2 (0 : Fin 1) (colOf j)) := by
  obtain ⟨p, q, rfl⟩ : ∃ (p : Fin 200) (q : Fin 16), j = ix2 p q := ⟨j 0, j 1, eq_ix2 j⟩
  unfold k2_pay1
  show matmul (F := Ideal) (φ₂ := .bf16) dot_S200x10000_S10000x16_S200x16_1_0_0_1_n_n none (truncf .bf16 (shapeCast S200x10000 x0 Facts₀.shapeCasts_S200x10000_S200x10000) Facts₀.bitsLt_bf16_f32) (shapeCast S10000x16 x1 Facts₀.shapeCasts_S10000x16_S10000x16) (constant S200x16 .f32 0x00000000#32) (ix2 p q)
      + broadcastTo S200x16 (shapeCast S1x16 x2 Facts₀.shapeCasts_S1x16_S1x16) Facts₀.broadcasts_S1x16_S200x16 (ix2 p q) = _
  exact block_sum x0 x1 x2 p q

set_option maxHeartbeats 4000000 in
/-- The printed index maps over the grid: the left window moves with the output window down the rows and stays at
    column block 0; the right window and the bias row stay put. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 49 :=
  (by decide +kernel : ∀ t : Fin grid2.N, _)

/-- Every row block of the output is some grid point's. -/
theorem idx_onto : ∀ (q0 : Fin 50), ∃ t : Fin cfg2.N, win2_3.index t = ![q0.val, 0] :=
  (by decide +kernel : ∀ (q0 : Fin 50), ∃ t : Fin grid2.N, win2_3.index t = ![q0.val, 0])

set_option maxHeartbeats 4000000 in
/-- What grid point t writes back is block t of one function of the three arrays as the region found them. -/
theorem flushed_eq (c : Dev nD) (t : Fin cfg2.N) :
    (dat2 V c).flushed 3 t = ((cfg2.win 3).blk t).view.read (Elt Ideal) (affine (V c main_v41) (V c main_v48) (V c main_v49)) := by
  show (cfg2.win 3).cut (grid2.coords t) ((dat2 V c).after 3 t) = _
  rw [after2_3]
  unfold out2_3
  rw [View.canon_unit_zero hz]
  simp only [View.ld_unit_zero (S := S200x10000) hz, View.ld_unit_zero (S := S10000x16) hz, View.ld_unit_zero (S := S1x16) hz]
  obtain ⟨e0, e1, e2, e3, e4, e5, e6, e7⟩ := idx_facts t
  funext j
  refine (block_value (iblk2 V c 0 t) (iblk2 V c 1 t) (iblk2 V c 2 t) j).trans ?_
  show _ = affine (V c main_v41) (V c main_v48) (V c main_v49) (((cfg2.win 3).blk t).view.emb j)
  unfold affine prod
  have h2 : ((cfg2.win 2).blk t).view.emb (ix2 (0 : Fin 1) (colOf j)) = ix2 (0 : Fin 1) (colOf (((cfg2.win 3).blk t).view.emb j)) := by
    funext a; apply Fin.ext
    match a with
    | ⟨0, _⟩ => show win2_2.index t (0 : Fin 2) * 1 + 1 * 0 = 0; omega
    | ⟨1, _⟩ => show win2_2.index t (1 : Fin 2) * 16 + 1 * (j 1).val = win2_3.index t (1 : Fin 2) * 16 + 1 * (j 1).val; omega
  congr 1
  · refine Finset.sum_congr rfl fun k _ => ?_
    have h0 : ((cfg2.win 0).blk t).view.emb (ix2 (rowOf j) k) = ix2 (rowOf (((cfg2.win 3).blk t).view.emb j)) k := by
      funext a; apply Fin.ext
      match a with
      | ⟨0, _⟩ => show win2_0.index t (0 : Fin 2) * 200 + 1 * (j 0).val = win2_3.index t (0 : Fin 2) * 200 + 1 * (j 0).val; omega
      | ⟨1, _⟩ => show win2_0.index t (1 : Fin 2) * 10000 + 1 * k.val = k.val; omega
    have h1 : ((cfg2.win 1).blk t).view.emb (ix2 k (colOf j)) = ix2 k (colOf (((cfg2.win 3).blk t).view.emb j)) := by
      funext a; apply Fin.ext
      match a with
      | ⟨0, _⟩ => show win2_1.index t (0 : Fin 2) * 10000 + 1 * k.val = k.val; omega
      | ⟨1, _⟩ => show win2_1.index t (1 : Fin 2) * 16 + 1 * (j 1).val = win2_3.index t (1 : Fin 2) * 16 + 1 * (j 1).val; omega
    congr 1
    · exact congrArg (V c main_v41) h0
    · exact congrArg (V c main_v48) h1
  · exact congrArg (V c main_v49) h2

/-- An index of the output is in grid point t's block iff each coordinate is in the block's range. -/
theorem mem_blk (t : Fin cfg2.N) (i : S10000x16.Idx) :
    i ∈ ((cfg2.win 3).blk t).view.set ↔ ∀ a : Fin 2, win2_3.index t a * S200x16.size a ≤ (i a).val ∧ (i a).val < win2_3.index t a * S200x16.size a + S200x16.size a := by
  show i ∈ ((View.whole main_v50).slice (win2_3.rect t)).set ↔ _
  rw [View.set_slice_whole, Rect.mem_set_unit]
  exact Iff.rfl

/-- Row r of the output lies in the block of the grid point that handles row block r / 200. -/
theorem cover (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨t, ht⟩ := idx_onto ⟨(i 0).val / 200, by omega⟩
  have q0 : win2_3.index t (0 : Fin 2) = (i 0).val / 200 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 16 ≤ (i 1).val ∧ (i 1).val < win2_3.index t (1 : Fin 2) * 16 + 16; omega

/-- The output array after the run, as one function of the arrays the region found. -/
theorem final (c : Dev nD) : (dat2 V c).arrAt 3 cfg2.N = affine (V c main_v41) (V c main_v48) (V c main_v49) :=
  (dat2 V c).arrAt_eq_of_cover 3 (affine (V c main_v41) (V c main_v48) (V c main_v49)) (fun t _ => flushed_eq V c t) cover

end Cert.KernelIdeal.Region2

end
-- ==== Proof.KernelValue.lean ====
/-
  The idealized kernel's result as one term of the argument arrays.

  The program's boundaries are walked from the launch to the return. The first product leaves x · W1 (the narrow
  float format being the identity on the extended reals); the first aggregation leaves the maximum with zero of
  (adjacency · that, plus the first bias); the host multiplies by W2; the second aggregation leaves adjacency · that,
  plus the second bias; the head is applied to it. The adjacency buffer is written once, before the first product,
  and read by both aggregations unchanged.
-/
import proofs.«123918_j62182536511521_2_alg».proof.Proof.KernelHost0
import proofs.«123918_j62182536511521_2_alg».proof.Proof.KernelHead
import proofs.«123918_j62182536511521_2_alg».proof.Proof.Region0
import proofs.«123918_j62182536511521_2_alg».proof.Proof.Region1
import proofs.«123918_j62182536511521_2_alg».proof.Proof.Region2
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-! ## The adjacency buffer, from its one write to the last aggregation -/

theorem W2_v41 : (W2 m ρ c (Proc.devRef .tc main_v41) : S10000x10000.Idx → EReal) = adjacency (m ((c : Thread nD τ).loc main_arg1)) :=
  (W2_of_ne m ρ c main_v41 (by decide)).trans (W1_v41 m ρ c)

theorem W3_v41 : (W3 m ρ c (Proc.devRef .tc main_v41) : S10000x10000.Idx → EReal) = adjacency (m ((c : Thread nD τ).loc main_arg1)) :=
  (StableHlo.after_of_forall_not_mem (b := Proc.devRef .tc main_v41) _ _ (by not_written hostOps1)).trans (W2_v41 m ρ c)

theorem W4_v41 : (W4 m ρ c (Proc.devRef .tc main_v41) : S10000x10000.Idx → EReal) = adjacency (m ((c : Thread nD τ).loc main_arg1)) :=
  ((W4_arr m ρ c 0).trans (((dat1 (V3 m ρ) c).arrAt_in 0 rfl _).trans (A_eq1 (V3 m ρ) c 0))).trans (W3_v41 m ρ c)

theorem W5_v41 : (W5 m ρ c (Proc.devRef .tc main_v41) : S10000x10000.Idx → EReal) = adjacency (m ((c : Thread nD τ).loc main_arg1)) :=
  (StableHlo.after_of_forall_not_mem (b := Proc.devRef .tc main_v41) _ _ (by not_written hostOps2)).trans (W4_v41 m ρ c)

/-! ## The first product -/

/-- After the first product its output buffer holds x · W1. -/
theorem W2_v43 : (W2 m ρ c (Proc.devRef .tc main_v43) : S10000x32.Idx → EReal)
    = prod (m ((c : Thread nD τ).loc main_arg0)) (truncf (F := Ideal) (s := S10000x32) .bf16 (m ((c : Thread nD τ).loc main_arg3)) Facts₀.bitsLt_bf16_f32) := by
  refine ((W2_arr m ρ c 2).trans (Region0.final (V1 m ρ) c)).trans ?_
  have e0 : (V1 m ρ c main_arg0 : S10000x10000.Idx → EReal) = m ((c : Thread nD τ).loc main_arg0) := kept_W1 m ρ c main_arg0 (by not_written hostOps0)
  have e1 : (V1 m ρ c main_v42 : S10000x32.Idx → EReal) = _ := W1_v42 m ρ c
  rw [e0, e1]

/-! ## The first aggregation -/

theorem host1_v44 (V : Valuation τ sig (Elt Ideal)) : (StableHlo.after hostOps1 V (Proc.devRef .tc main_v44) : S10000x32.Idx → EReal)
    = truncf (F := Ideal) (s := S10000x32) .bf16 (V (Proc.devRef .tc main_v43) : S10000x32.Idx → EReal) Facts₀.bitsLt_bf16_f32 := by
  after_results_simp <;> rfl

theorem W3_v44 : (W3 m ρ c (Proc.devRef .tc main_v44) : S10000x32.Idx → EReal)
    = truncf (F := Ideal) (s := S10000x32) .bf16 (W2 m ρ c (Proc.devRef .tc main_v43) : S10000x32.Idx → EReal) Facts₀.bitsLt_bf16_f32 :=
  host1_v44 (W2 m ρ c)

theorem host1_v45 (V : Valuation τ sig (Elt Ideal)) : (StableHlo.after hostOps1 V (Proc.devRef .tc main_v45) : S1x32.Idx → EReal)
    = shapeCast S1x32 (V (Proc.devRef .tc main_arg4) : S32.Idx → EReal) Facts₀.shapeCasts_S32_S1x32 := by
  after_results_simp <;> rfl

theorem W3_v45 : (W3 m ρ c (Proc.devRef .tc main_v45) : S1x32.Idx → EReal)
    = shapeCast S1x32 (W2 m ρ c (Proc.devRef .tc main_arg4) : S32.Idx → EReal) Facts₀.shapeCasts_S32_S1x32 :=
  host1_v45 (W2 m ρ c)

/-- After the first aggregation its output buffer holds max (adjacency · (x · W1) + b1, 0). -/
theorem W4_v46 : (W4 m ρ c (Proc.devRef .tc main_v46) : S10000x32.Idx → EReal)
    = reluAffine (adjacency (m ((c : Thread nD τ).loc main_arg1)))
        (truncf (F := Ideal) (s := S10000x32) .bf16 (prod (m ((c : Thread nD τ).loc main_arg0)) (truncf (F := Ideal) (s := S10000x32) .bf16 (m ((c : Thread nD τ).loc main_arg3)) Facts₀.bitsLt_bf16_f32)) Facts₀.bitsLt_bf16_f32)
        (shapeCast S1x32 (m ((c : Thread nD τ).loc main_arg4)) Facts₀.shapeCasts_S32_S1x32) := by
  refine ((W4_arr m ρ c 3).trans (Region1.final (V3 m ρ) c)).trans ?_
  have e0 : (V3 m ρ c main_v41 : S10000x10000.Idx → EReal) = _ := W3_v41 m ρ c
  have e1 : (V3 m ρ c main_v44 : S10000x32.Idx → EReal) = _ := (W3_v44 m ρ c).trans (by rw [W2_v43 m ρ c])
  have e2 : (V3 m ρ c main_v45 : S1x32.Idx → EReal) = _ := (W3_v45 m ρ c).trans (by rw [kept_W2 m ρ c (main_arg4) (by not_written hostOps0) (by decide)])
  rw [e0, e1, e2]

/-! ## The second aggregation -/

theorem host2_v48 (V : Valuation τ sig (Elt Ideal)) : (StableHlo.after hostOps2 V (Proc.devRef .tc main_v48) : S10000x16.Idx → EReal)
    = truncf (F := Ideal) (s := S10000x16) .bf16 (Host.dotGeneral (F := Ideal) (φ₁ := .f32) (φ₂ := .f32) dot_S10000x32_S32x16_S10000x16_1_0_0_1_n_n none
        (V (Proc.devRef .tc main_v46) : S10000x32.Idx → EReal) (V (Proc.devRef .tc main_arg5) : S32x16.Idx → EReal)) Facts₀.bitsLt_bf16_f32 := by
  after_results_simp <;> rfl

theorem W5_v48 : (W5 m ρ c (Proc.devRef .tc main_v48) : S10000x16.Idx → EReal)
    = truncf (F := Ideal) (s := S10000x16) .bf16 (Host.dotGeneral (F := Ideal) (φ₁ := .f32) (φ₂ := .f32) dot_S10000x32_S32x16_S10000x16_1_0_0_1_n_n none
        (W4 m ρ c (Proc.devRef .tc main_v46) : S10000x32.Idx → EReal) (W4 m ρ c (Proc.devRef .tc main_arg5) : S32x16.Idx → EReal)) Facts₀.bitsLt_bf16_f32 :=
  host2_v48 (W4 m ρ c)

theorem host2_v49 (V : Valuation τ sig (Elt Ideal)) : (StableHlo.after hostOps2 V (Proc.devRef .tc main_v49) : S1x16.Idx → EReal)
    = shapeCast S1x16 (V (Proc.devRef .tc main_arg6) : S16.Idx → EReal) Facts₀.shapeCasts_S16_S1x16 := by
  after_results_simp <;> rfl

theorem W5_v49 : (W5 m ρ c (Proc.devRef .tc main_v49) : S1x16.Idx → EReal)
    = shapeCast S1x16 (W4 m ρ c (Proc.devRef .tc main_arg6) : S16.Idx → EReal) Facts₀.shapeCasts_S16_S1x16 :=
  host2_v49 (W4 m ρ c)

/-- The node embeddings the kernel computes, as one term of the arguments. -/
def embeddings (x0 : S10000x10000.Idx → EReal) (x1 : (⟨S2x320000, .i32⟩ : BufTy).Contents (Elt Ideal)) (x3 : S10000x32.Idx → EReal)
    (x4 : S32.Idx → EReal) (x5 : S32x16.Idx → EReal) (x6 : S16.Idx → EReal) : S10000x16.Idx → EReal :=
  affine (adjacency x1)
    (truncf (F := Ideal) (s := S10000x16) .bf16 (Host.dotGeneral (F := Ideal) (φ₁ := .f32) (φ₂ := .f32) dot_S10000x32_S32x16_S10000x16_1_0_0_1_n_n none
      (reluAffine (adjacency x1)
        (truncf (F := Ideal) (s := S10000x32) .bf16 (prod x0 (truncf (F := Ideal) (s := S10000x32) .bf16 x3 Facts₀.bitsLt_bf16_f32)) Facts₀.bitsLt_bf16_f32)
        (shapeCast S1x32 x4 Facts₀.shapeCasts_S32_S1x32))
      x5) Facts₀.bitsLt_bf16_f32)
    (shapeCast S1x16 x6 Facts₀.shapeCasts_S16_S1x16)

/-- After the second aggregation its output buffer holds the node embeddings. -/
theorem W6_v50 : (W6 m ρ c (Proc.devRef .tc main_v50) : S10000x16.Idx → EReal)
    = embeddings (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine ((W6_arr m ρ c 3).trans (Region2.final (V5 m ρ) c)).trans ?_
  have e0 : (V5 m ρ c main_v41 : S10000x10000.Idx → EReal) = _ := W5_v41 m ρ c
  have e1 : (V5 m ρ c main_v48 : S10000x16.Idx → EReal) = _ :=
    (W5_v48 m ρ c).trans (by rw [W4_v46 m ρ c, kept_W4 m ρ c (main_arg5) (by not_written hostOps0) (by decide) (by not_written hostOps1) (by decide)])
  have e2 : (V5 m ρ c main_v49 : S1x16.Idx → EReal) = _ :=
    (W5_v49 m ρ c).trans (by rw [kept_W4 m ρ c (main_arg6) (by not_written hostOps0) (by decide) (by not_written hostOps1) (by decide)])
  rw [e0, e1, e2]
  rfl

/-! ## The result -/

/-- The result array at the program's end: the head of the node embeddings. -/
theorem result_eq : (W7 m ρ c (Proc.devRef .tc main_v79) : S200000x1.Idx → EReal)
    = Cert.Bridge.head
        (embeddings (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)))
        (m ((c : Thread nD τ).loc main_arg2)) (m ((c : Thread nD τ).loc main_arg7)) (m ((c : Thread nD τ).loc main_arg8)) := by
  rw [W7_v79 m ρ c, W6_v50 m ρ c, kept_W6 m ρ c (main_arg2) (by not_written hostOps0) (by decide) (by not_written hostOps1) (by decide) (by not_written hostOps2) (by decide), kept_W6 m ρ c (main_arg7) (by not_written hostOps0) (by decide) (by not_written hostOps1) (by decide) (by not_written hostOps2) (by decide),
    kept_W6 m ρ c (main_arg8) (by not_written hostOps0) (by decide) (by not_written hostOps1) (by decide) (by not_written hostOps2) (by decide)]

end Cert.KernelIdeal.Whole

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.LibIndexWords.lean ====
import Idealize.ShloMosaic.PureOps.Ideal
import Idealize.ShloMosaic.Lib.Affine
import Idealize.ShloMosaic.Lib.ValueIdx
import Idealize.ShloMosaic.Lib.Pipeline.Value
import proofs.«123918_j62182536511521_2_alg».proof.Proof.LibRefReads

/-!
# Small general facts about 32-bit index words

A rank-0 constant spread over a shape reads the constant everywhere, and the step "if the word is below zero add n, else
keep it" keeps a word that is not below zero. A vector made a one-column matrix, two such columns set side by side, and a
column repeated along the rows, each read at an entry. A row cut out of a two-row array and recast as a vector has only
words of the array. A vector of words in [0, N) followed by the numbers 0 … B - 1 (B ≤ N < 2³¹) has only words in [0, N).
All over explicit shapes, generic in the sizes.
-/

noncomputable section

namespace Cert.Lib

open Idealize.ShloMosaic Idealize.ShloMosaic.ValueIdx

/-! ## A constant spread over a shape; wrapping a nonnegative word -/

/-- A rank-0 constant broadcast to any shape reads the constant everywhere. -/
theorem bcast_const_apply {s : Shape} (hb : (⟨0, ![]⟩ : Shape).BroadcastsInDim s (![] : Fin 0 → Fin s.rank)) (b : BitVec 32)
    (j : s.Idx) : broadcastInDim s ![] hb (constantI ⟨0, ![]⟩ 32 b) j = b := rfl

/-- The word 0 is the integer 0 in the signed reading. -/
theorem toInt_zero32 : (0#32 : BitVec 32).toInt = 0 := by decide

/-- "If the word is below zero add n, else keep it" keeps a word that is not below zero: the signed comparison with 0
    is the bit 0 at every entry, and the selection on the bit 0 is its second branch. -/
theorem normalize_of_nonneg {s : Shape} (v n z : IVec s 32) (hz : ∀ j, z j = 0#32) (hv : ∀ j, 0 ≤ (v j).toInt) :
    select (cmpi .slt v z) (addi v n) v = v := by
  funext j
  rw [select_apply]
  have hc : cmpi .slt v z j = 0#1 := by
    apply eq_zero_of_ne_one
    intro h1
    have hlt : (v j).toInt < (z j).toInt := IntOp.cmpi_slt.1 h1
    rw [hz j, toInt_zero32] at hlt
    have := hv j
    omega
  rw [hc, select_zero]

/-! ## A vector as a one-column matrix; two columns side by side; a column repeated along rows -/

/-- A vector made a one-column matrix: entry (e, 0) is entry e. (On the vector's one axis the matrix index is read at
    its row coordinate, or at 0 when the vector has one entry: then e is 0.) -/
theorem col_apply {E : ℕ} {α : Type} (hb : (⟨1, ![E]⟩ : Shape).BroadcastsInDim ⟨2, ![E, 1]⟩ ![0])
    (a : (⟨1, ![E]⟩ : Shape).Idx → α) (e : Fin E) :
    broadcastInDim ⟨2, ![E, 1]⟩ ![0] hb a (ix2 e 0) = a (ix1 e) := by
  refine broadcastInDim_apply _ hb a _ (ix1 e) (fun c => ?_)
  match c with
  | ⟨0, _⟩ =>
    show e.val = if E = 1 then 0 else e.val
    split
    · have := e.isLt; omega
    · rfl

/-- Two vectors, each made a one-column matrix, set side by side: column 0 is the first vector … -/
theorem pair_cols_apply0 {E : ℕ} {α : Type} (hb : (⟨1, ![E]⟩ : Shape).BroadcastsInDim ⟨2, ![E, 1]⟩ ![0])
    (h : Shape.Concatenates [(⟨2, ![E, 1]⟩ : Shape), ⟨2, ![E, 1]⟩] ⟨2, ![E, 2]⟩ 1)
    (a b : (⟨1, ![E]⟩ : Shape).Idx → α) (e : Fin E) :
    concatenate ⟨2, ![E, 2]⟩ 1 [⟨⟨2, ![E, 1]⟩, broadcastInDim ⟨2, ![E, 1]⟩ ![0] hb a⟩,
      ⟨⟨2, ![E, 1]⟩, broadcastInDim ⟨2, ![E, 1]⟩ ![0] hb b⟩] h (ix2 e 0) = a (ix1 e) := by
  rw [Cert.RefLib.concat_cols_left, col_apply]

/-- … and column 1 the second. -/
theorem pair_cols_apply1 {E : ℕ} {α : Type} (hb : (⟨1, ![E]⟩ : Shape).BroadcastsInDim ⟨2, ![E, 1]⟩ ![0])
    (h : Shape.Concatenates [(⟨2, ![E, 1]⟩ : Shape), ⟨2, ![E, 1]⟩] ⟨2, ![E, 2]⟩ 1)
    (a b : (⟨1, ![E]⟩ : Shape).Idx → α) (e : Fin E) :
    concatenate ⟨2, ![E, 2]⟩ 1 [⟨⟨2, ![E, 1]⟩, broadcastInDim ⟨2, ![E, 1]⟩ ![0] hb a⟩,
      ⟨⟨2, ![E, 1]⟩, broadcastInDim ⟨2, ![E, 1]⟩ ![0] hb b⟩] h (ix2 e 1) = b (ix1 e) := by
  rw [Cert.RefLib.concat_cols_right, col_apply]

/-- A one-column matrix repeated along the rows: entry (e, c) is entry (e, 0). -/
theorem col_rows_apply {E C : ℕ} {α : Type} (hb : (⟨2, ![E, 1]⟩ : Shape).BroadcastsInDim ⟨2, ![E, C]⟩ ![0, 1])
    (a : (⟨2, ![E, 1]⟩ : Shape).Idx → α) (e : Fin E) (c : Fin C) :
    broadcastInDim ⟨2, ![E, C]⟩ ![0, 1] hb a (ix2 e c) = a (ix2 e 0) := by
  refine broadcastInDim_apply _ hb a _ (ix2 e 0) (fun d => ?_)
  match d with
  | ⟨0, _⟩ =>
    show e.val = if E = 1 then 0 else e.val
    split
    · have := e.isLt; omega
    · rfl
  | ⟨1, _⟩ =>
    show (0 : ℕ) = if (1 : ℕ) = 1 then 0 else c.val
    rw [if_pos rfl]

/-! ## A row of a two-row array, as a vector -/

/-- Each word of a row cut out of a two-row array and recast as a vector is a word of the array (both steps only
    re-index), so a property of all the array's words holds of it. -/
theorem slice_row_forall {Ecols : ℕ} (x1 : IVec ⟨2, ![2, Ecols]⟩ 32) (P : BitVec 32 → Prop) (hx : ∀ i, P (x1 i)) (r : ℕ)
    (hs : (⟨2, ![2, Ecols]⟩ : Shape).Slices ![r, 0] ⟨2, ![1, Ecols]⟩)
    (hc : (⟨2, ![1, Ecols]⟩ : Shape).ShapeCasts ⟨1, ![Ecols]⟩) (j : (⟨1, ![Ecols]⟩ : Shape).Idx) :
    P (shapeCast ⟨1, ![Ecols]⟩ (extractStridedSlice ⟨2, ![1, Ecols]⟩ ![r, 0] x1 hs) hc j) := by
  unfold shapeCast extractStridedSlice
  exact hx _

/-! ## Index words followed by the node numbers -/

/-- The numbers 0, 1, …, B - 1 as 32-bit words, read at an entry. -/
theorem iota_vec_apply {B : ℕ} (j : Fin B) : iotaInDim ⟨1, ![B]⟩ 32 0 (ix1 j) = BitVec.ofNat 32 j.val := rfl

/-- A vector of words in [0, N) followed by the numbers 0 … B - 1, with B ≤ N < 2³¹: every word of the whole is in
    [0, N). An entry before the join is a word of the vector; an entry e past it is the number e - A < B ≤ N, which
    below 2³¹ reads back as itself in the signed reading. -/
theorem concat_iota_range {A B T N : ℕ} (h : Shape.Concatenates [(⟨1, ![A]⟩ : Shape), ⟨1, ![B]⟩] ⟨1, ![T]⟩ 0)
    (a : IVec ⟨1, ![A]⟩ 32) (ha : ∀ j, 0 ≤ (a j).toInt ∧ (a j).toInt < (N : Int)) (hB : B ≤ N) (hN : N < 2 ^ 31)
    (hT : T = A + B) (e : Fin T) :
    0 ≤ (concatenate ⟨1, ![T]⟩ 0 [⟨⟨1, ![A]⟩, a⟩, ⟨⟨1, ![B]⟩, iotaInDim ⟨1, ![B]⟩ 32 0⟩] h (ix1 e)).toInt
      ∧ (concatenate ⟨1, ![T]⟩ 0 [⟨⟨1, ![A]⟩, a⟩, ⟨⟨1, ![B]⟩, iotaInDim ⟨1, ![B]⟩ 32 0⟩] h (ix1 e)).toInt < (N : Int) := by
  by_cases he : e.val < A
  · rw [Cert.RefLib.concat_vec_left h a _ e he]
    exact ha _
  · have hlt : e.val - A < B := by have := e.isLt; omega
    rw [Cert.RefLib.concat_vec_right h a _ e (by omega) hlt, iota_vec_apply,
      Cert.RefLib.toInt_ofNat32 _ (by omega)]
    constructor <;> omega

end Cert.Lib

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibAdjacency.lean ====
/-
  A graph aggregation written two ways, over the extended reals.

  One program builds a dense adjacency matrix `A[i, k]` = the sum of the weights `w e` of the edges `e` with
  `(dst e, src e) = (i, k)` — one accumulating scatter of scalars through a two-column array of index words — and
  multiplies `A` by a feature matrix `M`. The other takes row `src e` of `M` for every edge, scales it by `w e` and adds
  it into row `dst e` by an accumulating scatter of rows. When every weight is nonnegative the two agree with no
  finiteness assumption: `(a + b) * c = a * c + b * c` holds on the extended reals for `0 ≤ a`, `0 ≤ b`
  (`sum_mul_of_nonneg`), so each entry `A[i, k] * M[k]` spreads over its edges, and regrouping the edges into `i` by
  their source gives the other sum (`aggregate_eq`).

  Then the two scatters read at an entry: the scalar scatter through two columns of index words
  (`pairs_scatterAdd_apply`) and the row scatter through one column (`addRows_scatterAdd_apply`), each the operand's
  entry plus the sum of the updates whose index words name it, when every word names a row of the operand. Last, a word
  that names a row is its own clamp (`clampRow_of_range`), and the nonnegativity facts that carry `0 ≤ w e` through a
  reciprocal square root, an accumulating scatter, a gather and a product.
-/
import Idealize.ShloMosaic.PureOps.Ideal
import Idealize.ShloMosaic.PureOps.Ideal.Laws
import Idealize.ShloMosaic.Lib.ValueIdx
import proofs.«123918_j62182536511521_2_alg».proof.Proof.LibIndexedRows

noncomputable section

open scoped BigOperators

namespace Cert.Lib

open Idealize.ShloMosaic Idealize.ShloMosaic.ValueIdx

/-! ## The algebra -/

/-- A sum of nonnegative extended reals times `m` is the sum of the products. -/
theorem sum_mul_of_nonneg {ι : Type*} (s : Finset ι) (a : ι → EReal) (ha : ∀ e ∈ s, 0 ≤ a e) (m : EReal) :
    (∑ e ∈ s, a e) * m = ∑ e ∈ s, a e * m := by
  classical
  induction s using Finset.induction_on with
  | empty => simp
  | insert x s hx ih =>
    rw [Finset.sum_insert hx, Finset.sum_insert hx,
      EReal.right_distrib_of_nonneg (ha x (Finset.mem_insert_self x s))
        (Finset.sum_nonneg fun e he => ha e (Finset.mem_insert_of_mem he)),
      ih fun e he => ha e (Finset.mem_insert_of_mem he)]

/-- Row `i` of (adjacency matrix) × (vector): the sum over the edges into `i` of the vector at the edge's source times
    the edge's weight. -/
theorem aggregate_eq {E N : ℕ} (D S : Fin E → Fin N) (a : Fin E → EReal) (ha : ∀ e, 0 ≤ a e) (M : Fin N → EReal)
    (i : Fin N) :
    ∑ k : Fin N, (∑ e ∈ Finset.univ.filter (fun e => D e = i ∧ S e = k), a e) * M k
      = ∑ e ∈ Finset.univ.filter (fun e => D e = i), M (S e) * a e := by
  have h1 : ∀ k : Fin N, (∑ e ∈ Finset.univ.filter (fun e => D e = i ∧ S e = k), a e) * M k
      = ∑ e ∈ (Finset.univ.filter (fun e => D e = i)).filter (fun e => S e = k), M (S e) * a e := by
    intro k
    rw [sum_mul_of_nonneg _ _ (fun e _ => ha e), Finset.filter_filter]
    refine Finset.sum_congr rfl fun e he => ?_
    rw [(Finset.mem_filter.mp he).2.2, mul_comm]
  rw [Finset.sum_congr rfl fun k _ => h1 k]
  exact Finset.sum_fiberwise _ S _

/-! ## Nonnegativity -/

/-- The reciprocal square root of a nonnegative extended real is nonnegative (`0 ↦ ⊤`, `⊤ ↦ 0`). -/
theorem rsqrt_nonneg (x : EReal) (h : 0 ≤ x) : 0 ≤ Ideal.rsqrt x := by
  induction x using EReal.rec with
  | bot => exact absurd h (by simp)
  | top => simp
  | coe r =>
    have hr : 0 ≤ r := by exact_mod_cast h
    rw [Ideal.rsqrt_coe, if_neg (not_lt.mpr hr)]
    split
    · exact le_top
    · exact_mod_cast inv_nonneg.mpr (Real.sqrt_nonneg r)

/-- An accumulating scatter of nonnegative updates into a nonnegative operand is nonnegative. -/
theorem scatterAdd_nonneg {s si su : Shape} {w : ℕ} (d : ScatterDims s si su) (Z : s.Idx → EReal) (idx : IVec si w)
    (U : su.Idx → EReal) (hZ : ∀ i, 0 ≤ Z i) (hU : ∀ j, 0 ≤ U j) (i : s.Idx) :
    0 ≤ Host.scatterAdd (F := Ideal) (φ := .f32) d Z idx U i :=
  add_nonneg (hZ i) (Finset.sum_nonneg fun j _ => hU j)

/-- A gather reads the operand at some index: what holds of every operand element holds of every result element. -/
theorem gather_forall {α : Type} {s si so : Shape} {w : ℕ} (d : GatherDims s si so) (x : s.Idx → α) (idx : IVec si w)
    (P : α → Prop) (hx : ∀ i, P (x i)) (j : so.Idx) : P (Host.gather d x idx j) :=
  hx _

/-- A product of nonnegative extended reals is nonnegative. -/
theorem mul_nonneg' (a b : EReal) (ha : 0 ≤ a) (hb : 0 ≤ b) : 0 ≤ a * b := EReal.mul_nonneg ha hb

/-! ## The scalar scatter through two columns of index words -/

/-- A sum over a rank-1 index set is the sum over its coordinate. -/
theorem sum_ix1 {M : Type*} [AddCommMonoid M] {n : Nat} (f : (⟨1, ![n]⟩ : Shape).Idx → M) :
    ∑ j, f j = ∑ e : Fin n, f (ix1 e) := by
  refine Fintype.sum_equiv ⟨fun j => j 0, fun e => ix1 e, fun j => (eq_ix1 j).symm, fun _ => rfl⟩ _ _ fun j => ?_
  exact congrArg f (eq_ix1 j)

/-- The dimension numbers of "add update `e` into the operand's entry `(idx[e, 0], idx[e, 1])`". -/
abbrev pairsDims (N E : Nat)
    (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

theorem pairs_window {N E : Nat}
    (wf : ScatterDims.WF ⟨2, ![N, N]⟩ ⟨2, ![E, 2]⟩ ⟨1, ![E]⟩ [] [0, 1] [0, 1] 1)
    (j : (⟨1, ![E]⟩ : Shape).Idx) (a : Fin 2) : (pairsDims N E wf).window j a = 0 := by
  unfold ScatterDims.window
  rw [dif_neg]
  match a with
  | ⟨0, _⟩ => simp [ScatterDims.sKept, Shape.kept]
  | ⟨1, _⟩ => simp [ScatterDims.sKept, Shape.kept]

theorem pairs_start0 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 0 = (idx (ix2 e 0)).toInt := by
  have hm : (0 : Fin 2) ∈ (pairsDims N E wf).scatterDimsToOperandDims := by simp
  unfold ScatterDims.start
  rw [dif_pos hm]
  have hsi : (pairsDims N E wf).siIdx (ix1 e) ⟨List.idxOf (0 : Fin 2) (pairsDims N E wf).scatterDimsToOperandDims,
      List.idxOf_lt_length_iff.2 hm⟩ = ix2 e 0 := by
    funext b; refine Fin.ext ?_
    match b with
    | ⟨0, _⟩ => rfl
    | ⟨1, _⟩ => rfl
  rw [hsi]

theorem pairs_start1 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 1 = (idx (ix2 e 1)).toInt := by
  have hm : (1 : Fin 2) ∈ (pairsDims N E wf).scatterDimsToOperandDims := by simp
  unfold ScatterDims.start
  rw [dif_pos hm]
  have hsi : (pairsDims N E wf).siIdx (ix1 e) ⟨List.idxOf (1 : Fin 2) (pairsDims N E wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update `e` lands at the entry its two index words name, when both name a row of the matrix. -/
theorem pairs_resultIdx {N E w : Nat}
    (wf : ScatterDims.WF ⟨2, ![N, N]⟩ ⟨2, ![E, 2]⟩ ⟨1, ![E]⟩ [] [0, 1] [0, 1] 1)
    (idx : IVec ⟨2, ![E, 2]⟩ w) (D S : Fin E → Fin N)
    (hD : ∀ e, (idx (ix2 e 0)).toInt = ((D e).val : Int)) (hS : ∀ e, (idx (ix2 e 1)).toInt = ((S e).val : Int))
    (e : Fin E) : (pairsDims N E wf).resultIdx? (ix1 e) idx = some (ix2 (D e) (S e)) := by
  have h0 : (pairsDims N E wf).start (ix1 e) idx 0 + (pairsDims N E wf).window (ix1 e) 0 = ((D e).val : Int) := by
    rw [pairs_start0, pairs_window, hD]; simp
  have h1 : (pairsDims N E wf).start (ix1 e) idx 1 + (pairsDims N E wf).window (ix1 e) 1 = ((S e).val : Int) := by
    rw [pairs_start1, pairs_window, hS]; simp
  have key : ∀ a : Fin 2, (pairsDims N E wf).start (ix1 e) idx a + ((pairsDims N E wf).window (ix1 e) a : Nat)
      = ((ix2 (D e) (S e) a).val : Int) := by
    intro a
    match a with
    | ⟨0, _⟩ => exact h0
    | ⟨1, _⟩ => exact h1
  unfold ScatterDims.resultIdx?
  rw [dif_pos]
  · congr 1
    funext a; refine Fin.ext ?_
    show ((pairsDims N E wf).start (ix1 e) idx a + ((pairsDims N E wf).window (ix1 e) a : Nat)).toNat
      = (ix2 (D e) (S e) a).val
    rw [key a, Int.toNat_natCast]
  · intro a
    rw [key a]
    exact ⟨Int.natCast_nonneg _, by exact_mod_cast (ix2 (D e) (S e) a).isLt⟩

/-- The scatter at `(i, k)`: the operand's entry plus the sum of the updates whose two index words are `i` and `k`. -/
theorem pairs_scatterAdd_apply {N E w : Nat}
    (wf : ScatterDims.WF ⟨2, ![N, N]⟩ ⟨2, ![E, 2]⟩ ⟨1, ![E]⟩ [] [0, 1] [0, 1] 1)
    (Z : (⟨2, ![N, N]⟩ : Shape).Idx → EReal) (idx : IVec ⟨2, ![E, 2]⟩ w) (u : (⟨1, ![E]⟩ : Shape).Idx → EReal)
    (D S : Fin E → Fin N)
    (hD : ∀ e, (idx (ix2 e 0)).toInt = ((D e).val : Int)) (hS : ∀ e, (idx (ix2 e 1)).toInt = ((S e).val : Int))
    (i k : Fin N) :
    Host.scatterAdd (F := Ideal) (φ := .f32) (pairsDims N E wf) Z idx u (ix2 i k)
      = Z (ix2 i k) + ∑ e ∈ Finset.univ.filter (fun e : Fin E => D e = i ∧ S e = k), u (ix1 e) := by
  show Z (ix2 i k) + ∑ j ∈ Finset.univ.filter (fun j => (pairsDims N E wf).resultIdx? j idx = some (ix2 i k)), u j = _
  congr 1
  rw [Finset.sum_filter, sum_ix1, Finset.sum_filter]
  refine Finset.sum_congr rfl fun e _ => ?_
  rw [pairs_resultIdx wf idx D S hD hS e]
  have hiff : (some (ix2 (D e) (S e)) = some (ix2 i k)) ↔ (D e = i ∧ S e = k) := by
    constructor
    · intro h
      have h' := Option.some.inj h
      exact ⟨congrFun h' 0, congrFun h' 1⟩
    · rintro ⟨rfl, rfl⟩; rfl
  simp only [hiff]

/-! ## The row scatter through one column of index words -/

theorem addRows_window0 {N E C : Nat}
    (wf : ScatterDims.WF ⟨2, ![N, C]⟩ ⟨2, ![E, 1]⟩ ⟨2, ![E, C]⟩ [1] [0] [0] 1)
    (j : (⟨2, ![E, C]⟩ : Shape).Idx) : (addRowsDims N E C wf).window j 0 = 0 := by
  unfold ScatterDims.window
  rw [dif_neg]
  simp [ScatterDims.sKept, Shape.kept]

theorem addRows_window1 {N E C : Nat}
    (wf : ScatterDims.WF ⟨2, ![N, C]⟩ ⟨2, ![E, 1]⟩ ⟨2, ![E, C]⟩ [1] [0] [0] 1)
    (e : Fin E) (c : Fin C) : (addRowsDims N E C wf).window (ix2 e c) 1 = c.val := by
  have hk : (1 : Fin 2) ∈ (addRowsDims N E C wf).sKept := by simp [ScatterDims.sKept, Shape.kept]
  unfold ScatterDims.window
  rw [dif_pos hk]
  rfl

theorem addRows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e 0)).toInt := by
  have hm : (0 : Fin 2) ∈ (addRowsDims N E C wf).scatterDimsToOperandDims := by simp
  unfold ScatterDims.start
  rw [dif_pos hm]
  have hsi : (addRowsDims N E C wf).siIdx (ix2 e c) ⟨List.idxOf (0 : Fin 2) (addRowsDims N E C wf).scatterDimsToOperandDims,
      List.idxOf_lt_length_iff.2 hm⟩ = ix2 e 0 := by
    funext b; refine Fin.ext ?_
    match b with
    | ⟨0, _⟩ => rfl
    | ⟨1, _⟩ => rfl
  rw [hsi]

theorem addRows_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 1 = 0 := by
  unfold ScatterDims.start
  rw [dif_neg]
  simp

/-- Update `(e, c)` lands at row `idx[e, 0]`, column `c`, when the word names a row of the matrix. -/
theorem addRows_resultIdx {N E C w : Nat}
    (wf : ScatterDims.WF ⟨2, ![N, C]⟩ ⟨2, ![E, 1]⟩ ⟨2, ![E, C]⟩ [1] [0] [0] 1)
    (idx : IVec ⟨2, ![E, 1]⟩ w) (D : Fin E → Fin N)
    (hD : ∀ e, (idx (ix2 e 0)).toInt = ((D e).val : Int)) (e : Fin E) (c : Fin C) :
    (addRowsDims N E C wf).resultIdx? (ix2 e c) idx = some (ix2 (D e) c) := by
  have key : ∀ a : Fin 2, (addRowsDims N E C wf).start (ix2 e c) idx a + ((addRowsDims N E C wf).window (ix2 e c) a : Nat)
      = ((ix2 (D e) c a).val : Int) := by
    intro a
    match a with
    | ⟨0, _⟩ =>
      show (addRowsDims N E C wf).start (ix2 e c) idx 0 + ((addRowsDims N E C wf).window (ix2 e c) 0 : Nat) = ((D e).val : Int)
      rw [addRows_start0, addRows_window0, hD]; simp
    | ⟨1, _⟩ =>
      show (addRowsDims N E C wf).start (ix2 e c) idx 1 + ((addRowsDims N E C wf).window (ix2 e c) 1 : Nat) = (c.val : Int)
      rw [addRows_start1, addRows_window1]; simp
  unfold ScatterDims.resultIdx?
  rw [dif_pos]
  · congr 1
    funext a; refine Fin.ext ?_
    show ((addRowsDims N E C wf).start (ix2 e c) idx a + ((addRowsDims N E C wf).window (ix2 e c) a : Nat)).toNat
      = (ix2 (D e) c a).val
    rw [key a, Int.toNat_natCast]
  · intro a
    rw [key a]
    exact ⟨Int.natCast_nonneg _, by exact_mod_cast (ix2 (D e) c a).isLt⟩

/-- The scatter at `(i, c)`: the operand's entry plus the sum over the update rows whose index word is `i` of their
    entry in column `c`. -/
theorem addRows_scatterAdd_apply {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (D : Fin E → Fin N) (hD : ∀ e, (idx (ix2 e 0)).toInt = ((D e).val : Int)) (i : Fin N) (c : Fin C) :
    Host.scatterAdd (F := Ideal) (φ := .f32) (addRowsDims N E C wf) Z idx U (ix2 i c)
      = Z (ix2 i c) + ∑ e ∈ Finset.univ.filter (fun e : Fin E => D e = i), U (ix2 e c) := by
  show Z (ix2 i c) + ∑ j ∈ Finset.univ.filter (fun j => (addRowsDims N E C wf).resultIdx? j idx = some (ix2 i c)), U j = _
  congr 1
  rw [Finset.sum_filter, sum_idx2, Finset.sum_filter]
  refine Finset.sum_congr rfl fun e _ => ?_
  have hiff : ∀ c' : Fin C, (some (ix2 (D e) c') = some (ix2 i c)) ↔ (D e = i ∧ c' = c) := by
    intro c'
    constructor
    · intro h
      have h' := Option.some.inj h
      exact ⟨congrFun h' 0, congrFun h' 1⟩
    · rintro ⟨rfl, rfl⟩; rfl
  simp only [addRows_resultIdx wf idx D hD e, hiff]
  by_cases hi : D e = i
  · simp [hi]
  · simp [hi]

/-- A word that names a row is its own clamp. -/
theorem clampRow_of_range (N : ℕ) (hN : 0 < N) {w : ℕ} (b : BitVec w) (r : Fin N) (h : b.toInt = (r.val : Int)) :
    clampRow N hN b = r := by
  refine Fin.ext ?_
  show min b.toInt.toNat (N - 1) = r.val
  rw [h, Int.toNat_natCast]
  have := r.isLt
  omega

end Cert.Lib

end
-- ==== Proof.Edges.lean ====
/-
  The graph's edges as the two programs read them out of the edge-index argument.

  The argument has a row of source words and a row of destination words for 320000 edges; both programs append the
  10000 self-loops (the numbers 0 … 9999). When every word of the argument is in [0, 10000), every source and
  destination word of the 330000 edges is, so wrapping a word ("if it is below zero add 10000") changes nothing, a
  word names a row exactly, and the row it names is its own clamp. An edge's weight is the product of the reciprocal
  square roots of its endpoints' degrees; degrees are sums of ones, so every weight is nonnegative (an extended real:
  nothing here needs it finite). The second layer recomputes the same edges and weights by the same operations.
-/
import proofs.«123918_j62182536511521_2_alg».proof.Proof.Gen.ReferenceIdeal.Read
import proofs.«123918_j62182536511521_2_alg».proof.Proof.LibIndexWords
import proofs.«123918_j62182536511521_2_alg».proof.Proof.LibAdjacency

set_option maxRecDepth 16384

noncomputable section

namespace Cert.Bridge

open Idealize.ShloMosaic Idealize.ShloMosaic.ValueIdx Cert.ReferenceIdeal Cert.ReferenceIdeal.Read Cert.Lib

/-- The edge-index argument's contents. -/
abbrev EdgeWords := (⟨S2x320000, .i32⟩ : BufTy).Contents (Elt Ideal)

/-- Every word of the argument names a node. -/
def InRange (x1 : EdgeWords) : Prop := ∀ i : S2x320000.Idx, 0 ≤ (x1 i).toInt ∧ (x1 i).toInt < 10000

variable (x1 : EdgeWords)

/-- Every source word of the 330000 edges names a node. -/
theorem src_range (hx : InRange x1) (e : Fin 330000) :
    0 ≤ (val_main_v3 (F := Ideal) x1 (ix1 e)).toInt ∧ (val_main_v3 (F := Ideal) x1 (ix1 e)).toInt < ((10000 : ℕ) : Int) :=
  concat_iota_range Facts₀.concatenates_S320000_S10000_S330000_d0 _
    (fun j => slice_row_forall x1 (fun w => 0 ≤ w.toInt ∧ w.toInt < ((10000 : ℕ) : Int)) hx 0
      Facts₀.slices_S2x320000_S1x320000_0_0 Facts₀.shapeCasts_S1x320000_S320000 j)
    (le_refl _) (by norm_num) rfl e

/-- Every destination word names a node. -/
theorem dst_range (hx : InRange x1) (e : Fin 330000) :
    0 ≤ (val_main_v6 (F := Ideal) x1 (ix1 e)).toInt ∧ (val_main_v6 (F := Ideal) x1 (ix1 e)).toInt < ((10000 : ℕ) : Int) :=
  concat_iota_range Facts₀.concatenates_S320000_S10000_S330000_d0 _
    (fun j => slice_row_forall x1 (fun w => 0 ≤ w.toInt ∧ w.toInt < ((10000 : ℕ) : Int)) hx 1
      Facts₀.slices_S2x320000_S1x320000_1_0 Facts₀.shapeCasts_S1x320000_S320000 j)
    (le_refl _) (by norm_num) rfl e

/-- The destination node of edge e. -/
def dstRow (e : Fin 330000) : Fin 10000 := clampRow 10000 (by norm_num) (val_main_v6 (F := Ideal) x1 (ix1 e))
/-- The source node of edge e. -/
def srcRow (e : Fin 330000) : Fin 10000 := clampRow 10000 (by norm_num) (val_main_v3 (F := Ideal) x1 (ix1 e))
/-- The weight of edge e. -/
def weight (e : Fin 330000) : EReal := val_main_v26 (F := Ideal) x1 (ix1 e)

/-- A word in [0, N) is the number of the row it is clamped to. -/
theorem toInt_eq_clampRow {N : ℕ} (hN : 0 < N) (b : BitVec 32) (h0 : 0 ≤ b.toInt) (h1 : b.toInt < (N : Int)) :
    b.toInt = ((clampRow N hN b).val : Int) := by
  show b.toInt = ((min b.toInt.toNat (N - 1) : ℕ) : Int)
  omega

theorem dstRow_spec (hx : InRange x1) (e : Fin 330000) :
    (val_main_v6 (F := Ideal) x1 (ix1 e)).toInt = ((dstRow x1 e).val : Int) :=
  toInt_eq_clampRow _ _ (dst_range x1 hx e).1 (dst_range x1 hx e).2

theorem srcRow_spec (hx : InRange x1) (e : Fin 330000) :
    (val_main_v3 (F := Ideal) x1 (ix1 e)).toInt = ((srcRow x1 e).val : Int) :=
  toInt_eq_clampRow _ _ (src_range x1 hx e).1 (src_range x1 hx e).2

/-! ## Wrapping changes nothing -/

theorem src_nonneg (hx : InRange x1) (j : S330000.Idx) : 0 ≤ (val_main_v3 (F := Ideal) x1 j).toInt := by
  rw [eq_ix1 j]; exact (src_range x1 hx (j 0)).1

theorem dst_nonneg (hx : InRange x1) (j : S330000.Idx) : 0 ≤ (val_main_v6 (F := Ideal) x1 j).toInt := by
  rw [eq_ix1 j]; exact (dst_range x1 hx (j 0)).1

/-- The wrapped source words (for the degree normalization) are the source words. -/
theorem wrap_v16 (hx : InRange x1) : val_main_v16 (F := Ideal) x1 = val_main_v3 (F := Ideal) x1 :=
  normalize_of_nonneg (val_main_v3 (F := Ideal) x1) (val_main_v14 (F := Ideal)) (val_main_v12 (F := Ideal))
    (fun j => bcast_const_apply Facts₀.bcast_S_S330000 0#32 j) (src_nonneg x1 hx)

/-- The wrapped destination words are the destination words. -/
theorem wrap_v23 (hx : InRange x1) : val_main_v23 (F := Ideal) x1 = val_main_v6 (F := Ideal) x1 :=
  normalize_of_nonneg (val_main_v6 (F := Ideal) x1) (val_main_v21 (F := Ideal)) (val_main_v19 (F := Ideal))
    (fun j => bcast_const_apply Facts₀.bcast_S_S330000 0#32 j) (dst_nonneg x1 hx)

/-- The wrapped source words (for the feature rows) are the source words. -/
theorem wrap_v32 (hx : InRange x1) : val_main_v32 (F := Ideal) x1 = val_main_v3 (F := Ideal) x1 :=
  normalize_of_nonneg (val_main_v3 (F := Ideal) x1) (val_main_v30 (F := Ideal)) (val_main_v28 (F := Ideal))
    (fun j => bcast_const_apply Facts₀.bcast_S_S330000 0#32 j) (src_nonneg x1 hx)

/-! ## The second layer's edges and weights are the first layer's -/

theorem v48_eq : val_main_v48 (F := Ideal) x1 = val_main_v3 (F := Ideal) x1 := rfl
theorem v51_eq : val_main_v51 (F := Ideal) x1 = val_main_v6 (F := Ideal) x1 := rfl
theorem v71_eq : val_main_v71 (F := Ideal) x1 = val_main_v26 (F := Ideal) x1 := rfl
theorem v77_eq : val_main_v77 (F := Ideal) x1 = val_main_v32 (F := Ideal) x1 := rfl

/-! ## The weights are nonnegative -/

/-- The degrees are nonnegative: zero plus a sum of ones. -/
theorem deg_nonneg (i : S10000.Idx) : 0 ≤ val_main_v10 (F := Ideal) x1 i :=
  scatterAdd_nonneg _ _ _ _
    (fun i => le_of_eq (show (0 : EReal) = Ideal.ofBits .f32 0x00000000#32 from Ideal.ofBits_zero_f32.symm))
    (fun j => by
      show (0 : EReal) ≤ Ideal.ofBits .f32 0x3F800000#32
      have h : Ideal.ofBits .f32 0x3F800000#32 = 1 := by simp [Ideal.ofBits, Ideal.ieee, -EReal.coe_mul]; norm_num
      rw [h]; exact zero_le_one) i

/-- Their reciprocal square roots are nonnegative. -/
theorem dinv_nonneg (i : S10000.Idx) : 0 ≤ val_main_v11 (F := Ideal) x1 i := by
  rw [val_main_v11_apply, Ideal.hostUnary_rsqrt_def]
  exact rsqrt_nonneg _ (deg_nonneg x1 i)

/-- Every edge weight is nonnegative. -/
theorem weight_nonneg (e : Fin 330000) : 0 ≤ weight x1 e :=
  mul_nonneg' _ _
    (gather_forall _ (val_main_v11 (F := Ideal) x1) (val_main_v17 (F := Ideal) x1) (fun y => 0 ≤ y) (dinv_nonneg x1) (ix1 e))
    (gather_forall _ (val_main_v11 (F := Ideal) x1) (val_main_v24 (F := Ideal) x1) (fun y => 0 ≤ y) (dinv_nonneg x1) (ix1 e))

end Cert.Bridge

end
-- ==== Proof.Aggregation.lean ====
/-
  A graph convolution's aggregation, two ways, as statements about whole arrays.

  Edges e have a destination row D e, a source row S e and a weight a e ≥ 0. `agg D S a M` is the edgewise form:
  entry (i, c) is the sum over the edges into i of M at (source, c) times the weight. A dense adjacency array whose
  entry (i, k) is the sum of the weights of the edges from k into i, multiplied by M, is the same array: each entry of
  the adjacency array times an entry of M spreads over its edges because the weights are nonnegative, and the edges
  into i regroup by source. `layer1` and `layer2` are the two layers of the network over `agg`.
-/
import proofs.«123918_j62182536511521_2_alg».proof.Proof.Spec
import proofs.«123918_j62182536511521_2_alg».proof.Proof.LibAdjacency

noncomputable section

namespace Cert.Spec

open Idealize.ShloMosaic Idealize.ShloMosaic.ValueIdx

variable {E N K C : ℕ}

/-- The edgewise aggregation of the rows of M. -/
def agg (D S : Fin E → Fin N) (a : Fin E → EReal) (M : (⟨2, ![N, C]⟩ : Shape).Idx → EReal) :
    (⟨2, ![N, C]⟩ : Shape).Idx → EReal :=
  fun i => ∑ e ∈ Finset.univ.filter (fun e => D e = rowOf i), M (ix2 (S e) (colOf i)) * a e

/-- The first layer: aggregate the rows of x · W, add the bias, take the maximum with the value of the zero word. -/
def layer1 (D S : Fin E → Fin N) (a : Fin E → EReal) (x : (⟨2, ![N, K]⟩ : Shape).Idx → EReal)
    (W : (⟨2, ![K, C]⟩ : Shape).Idx → EReal) (b : (⟨1, ![C]⟩ : Shape).Idx → EReal) : (⟨2, ![N, C]⟩ : Shape).Idx → EReal :=
  fun i => max (agg D S a (prod x W) i + b (ix1 (colOf i))) (Ideal.ofBits .f32 0x00000000#32)

/-- The second layer: aggregate the rows of h · W and add the bias. -/
def layer2 (D S : Fin E → Fin N) (a : Fin E → EReal) (h : (⟨2, ![N, K]⟩ : Shape).Idx → EReal)
    (W : (⟨2, ![K, C]⟩ : Shape).Idx → EReal) (b : (⟨1, ![C]⟩ : Shape).Idx → EReal) : (⟨2, ![N, C]⟩ : Shape).Idx → EReal :=
  fun i => agg D S a (prod h W) i + b (ix1 (colOf i))

/-- The dense form: an adjacency array whose entry (i, k) is the sum of the weights of the edges from k into i,
    times M, is the edgewise aggregation of M. -/
theorem prod_adjacency (D S : Fin E → Fin N) (a : Fin E → EReal) (ha : ∀ e, 0 ≤ a e)
    (A : (⟨2, ![N, N]⟩ : Shape).Idx → EReal)
    (hA : ∀ i k : Fin N, A (ix2 i k) = ∑ e ∈ Finset.univ.filter (fun e => D e = i ∧ S e = k), a e)
    (M : (⟨2, ![N, C]⟩ : Shape).Idx → EReal) : prod A M = agg D S a M := by
  funext i
  obtain ⟨p, q, rfl⟩ : ∃ (p : Fin N) (q : Fin C), i = ix2 p q := ⟨i 0, i 1, eq_ix2 i⟩
  show ∑ k : Fin N, A (ix2 p k) * M (ix2 k q) = ∑ e ∈ Finset.univ.filter (fun e => D e = p), M (ix2 (S e) q) * a e
  rw [Finset.sum_congr rfl fun k _ => by rw [hA p k]]
  exact Cert.Lib.aggregate_eq D S a ha (fun k => M (ix2 k q)) p

end Cert.Spec

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«123918_j62182536511521_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.KernelMath.lean ====
/-
  The kernel's node embeddings are the two layers of the specification.

  The dense adjacency array's entry (i, k) is zero plus the sum of the weights of the edges from k into i, because
  with every edge word in range the wrapped words are the words and each names its row exactly. Its product with a
  feature array is therefore the edgewise aggregation (the weights are nonnegative), the bias row cast from a vector
  reads the vector, and the changes of float format are the identity on the extended reals.
-/
import proofs.«123918_j62182536511521_2_alg».proof.Proof.KernelValue
import proofs.«123918_j62182536511521_2_alg».proof.Proof.Edges
import proofs.«123918_j62182536511521_2_alg».proof.Proof.Aggregation
import proofs.«123918_j62182536511521_2_alg».proof.Proof.LibHostDot2
import Idealize.ShloMosaic.Lib.ValueLayout

set_option maxRecDepth 16384

noncomputable section

namespace Cert.KernelIdeal.Whole

open Cert.KernelIdeal Cert.KernelIdeal.Gen Cert.Spec Cert.Lib Cert.Bridge
open Idealize.ShloMosaic Idealize.ShloMosaic.ValueIdx

variable (x0 : S10000x10000.Idx → EReal) (x1 : Cert.Bridge.EdgeWords) (x3 : S10000x32.Idx → EReal)
  (x4 : S32.Idx → EReal) (x5 : S32x16.Idx → EReal) (x6 : S16.Idx → EReal)

/-- An entry of the dense adjacency array: the sum of the weights of the edges between the two nodes. -/
theorem adjacency_apply (hx : InRange x1) (i k : Fin 10000) :
    adjacency x1 (ix2 i k) = ∑ e ∈ Finset.univ.filter (fun e => dstRow x1 e = i ∧ srcRow x1 e = k), weight x1 e := by
  have h := pairs_scatterAdd_apply (N := 10000) (E := 330000) Facts₀.scatter_S10000x10000_S330000x2_S330000_n_01_01_1_wf
    (broadcastInDim S10000x10000 ![] Facts₀.bcast_S_S10000x10000 (constant (F := Ideal) S_ .f32 0x00000000#32))
    (concatenate S330000x2 1
      [⟨S330000x1, broadcastInDim S330000x1 ![0] Facts₀.bcast_S330000_S330000x1_0 (Cert.ReferenceIdeal.Read.val_main_v23 (F := Ideal) x1)⟩,
       ⟨S330000x1, broadcastInDim S330000x1 ![0] Facts₀.bcast_S330000_S330000x1_0 (Cert.ReferenceIdeal.Read.val_main_v16 (F := Ideal) x1)⟩]
      Facts₀.concatenates_S330000x1_S330000x1_S330000x2_d1)
    (Cert.ReferenceIdeal.Read.val_main_v26 (F := Ideal) x1) (dstRow x1) (srcRow x1)
    (fun e => by rw [pair_cols_apply0, wrap_v23 x1 hx]; exact dstRow_spec x1 hx e)
    (fun e => by rw [pair_cols_apply1, wrap_v16 x1 hx]; exact srcRow_spec x1 hx e) i k
  refine (show adjacency x1 (ix2 i k) = _ from h).trans ?_
  rw [show broadcastInDim S10000x10000 ![] Facts₀.bcast_S_S10000x10000 (constant (F := Ideal) S_ .f32 0x00000000#32) (ix2 i k) = 0 from Ideal.ofBits_zero_f32,
    zero_add]
  rfl

/-- The adjacency array times a feature array is the edgewise aggregation of the feature array. -/
theorem prod_adjacency_eq {C : ℕ} (hx : InRange x1) (M : (⟨2, ![10000, C]⟩ : Shape).Idx → EReal) :
    prod (adjacency x1) M = agg (dstRow x1) (srcRow x1) (weight x1) M :=
  prod_adjacency (dstRow x1) (srcRow x1) (weight x1) (weight_nonneg x1) (adjacency x1) (adjacency_apply x1 hx) M

/-- THE KERNEL'S NODE EMBEDDINGS are the second layer over the first. -/
theorem embeddings_eq (hx : InRange x1) :
    embeddings x0 x1 x3 x4 x5 x6
      = layer2 (dstRow x1) (srcRow x1) (weight x1) (layer1 (dstRow x1) (srcRow x1) (weight x1) x0 x3 x4) x5 x6 := by
  have h1 : reluAffine (adjacency x1)
        (truncf (F := Ideal) (s := S10000x32) .bf16 (prod x0 (truncf (F := Ideal) (s := S10000x32) .bf16 x3 Facts₀.bitsLt_bf16_f32)) Facts₀.bitsLt_bf16_f32)
        (shapeCast S1x32 x4 Facts₀.shapeCasts_S32_S1x32)
      = layer1 (dstRow x1) (srcRow x1) (weight x1) x0 x3 x4 := by
    funext i
    obtain ⟨p, q, rfl⟩ : ∃ (p : Fin 10000) (q : Fin 32), i = ix2 p q := ⟨i 0, i 1, eq_ix2 i⟩
    show max (prod (adjacency x1) (prod x0 x3) (ix2 p q) + shapeCast S1x32 x4 Facts₀.shapeCasts_S32_S1x32 (ix2 (0 : Fin 1) q)) (Ideal.ofBits .f32 0x00000000#32)
        = max (agg (dstRow x1) (srcRow x1) (weight x1) (prod x0 x3) (ix2 p q) + x4 (ix1 q)) (Ideal.ofBits .f32 0x00000000#32)
    rw [prod_adjacency_eq x1 hx, shapeCast_a_1a_apply]
  have h2 : Host.dotGeneral (F := Ideal) (φ₁ := .f32) (φ₂ := .f32) dot_S10000x32_S32x16_S10000x16_1_0_0_1_n_n none
        (layer1 (dstRow x1) (srcRow x1) (weight x1) x0 x3 x4) x5
      = prod (layer1 (dstRow x1) (srcRow x1) (weight x1) x0 x3 x4) x5 := by
    funext j
    obtain ⟨r, s, rfl⟩ : ∃ (r : Fin 10000) (s : Fin 16), j = ix2 r s := ⟨j 0, j 1, eq_ix2 j⟩
    exact hostDot2_apply (A := 10000) (K := 32) (B := 16) Facts₀.dot_S10000x32_S32x16_S10000x16_1_0_0_1_n_n_wf _ x5 r s
  unfold embeddings
  rw [h1, h2]
  funext i
  obtain ⟨p, q, rfl⟩ : ∃ (p : Fin 10000) (q : Fin 16), i = ix2 p q := ⟨i 0, i 1, eq_ix2 i⟩
  show prod (adjacency x1) (prod (layer1 (dstRow x1) (srcRow x1) (weight x1) x0 x3 x4) x5) (ix2 p q)
        + shapeCast S1x16 x6 Facts₀.shapeCasts_S16_S1x16 (ix2 (0 : Fin 1) q)
      = agg (dstRow x1) (srcRow x1) (weight x1) (prod (layer1 (dstRow x1) (srcRow x1) (weight x1) x0 x3 x4) x5) (ix2 p q) + x6 (ix1 q)
  rw [prod_adjacency_eq x1 hx, shapeCast_a_1a_apply]

end Cert.KernelIdeal.Whole

end
-- ==== Proof.SegmentSum.lean ====
/-
  The reference's aggregation read at an entry.

  For every edge the reference takes the row of M its (wrapped) source word names, scales it by the edge's weight, and
  adds it into the row of a zero array its destination word names, by an accumulating scatter of rows. When the
  destination words name rows exactly and the source words clamp to the rows S, entry (p, q) of the result is the sum
  over the edges into p of M (S e, q) times the weight: the edgewise aggregation.
-/
import proofs.«123918_j62182536511521_2_alg».proof.Proof.Aggregation
import proofs.«123918_j62182536511521_2_alg».proof.Proof.LibIndexWords

noncomputable section

namespace Cert.Spec

open Idealize.ShloMosaic Idealize.ShloMosaic.ValueIdx Cert.Lib

variable {E N C : ℕ}

theorem segment_sum_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hb1 : (⟨1, ![E]⟩ : Shape).BroadcastsInDim ⟨2, ![E, 1]⟩ ![0])
    (hb2 : (⟨2, ![E, 1]⟩ : Shape).BroadcastsInDim ⟨2, ![E, C]⟩ ![0, 1])
    (Z : (⟨2, ![N, C]⟩ : Shape).Idx → EReal) (hZ : ∀ i, Z i = 0)
    (dst src : IVec ⟨1, ![E]⟩ 32) (w : (⟨1, ![E]⟩ : Shape).Idx → EReal) (M : (⟨2, ![N, C]⟩ : Shape).Idx → EReal)
    (D S : Fin E → Fin N) (hD : ∀ e, (dst (ix1 e)).toInt = ((D e).val : Int))
    (hS : ∀ e, clampRow N hN (src (ix1 e)) = S e) (p : Fin N) (q : Fin C) :
    Host.scatterAdd (F := Ideal) (φ := .f32) (addRowsDims N E C wfS) Z (broadcastInDim ⟨2, ![E, 1]⟩ ![0] hb1 dst)
        (mulf (F := Ideal) (φ := .f32) (Host.gather (rowsDims N E C wfG) M (broadcastInDim ⟨2, ![E, 1]⟩ ![0] hb1 src))
          (broadcastInDim ⟨2, ![E, C]⟩ ![0, 1] hb2 (broadcastInDim ⟨2, ![E, 1]⟩ ![0] hb1 w))) (ix2 p q)
      = agg D S (fun e => w (ix1 e)) M (ix2 p q) := by
  rw [addRows_scatterAdd_apply wfS Z _ _ D (fun e => by rw [col_apply]; exact hD e) p q, hZ, zero_add]
  show _ = ∑ e ∈ Finset.univ.filter (fun e => D e = p), M (ix2 (S e) q) * w (ix1 e)
  refine Finset.sum_congr rfl fun e _ => ?_
  show Host.gather (rowsDims N E C wfG) M (broadcastInDim ⟨2, ![E, 1]⟩ ![0] hb1 src) (ix2 e q)
      * broadcastInDim ⟨2, ![E, C]⟩ ![0, 1] hb2 (broadcastInDim ⟨2, ![E, 1]⟩ ![0] hb1 w) (ix2 e q) = _
  rw [gather_rows_apply hN wfG M _ e q, col_apply, hS e, col_rows_apply, col_apply]

end Cert.Spec

end
-- ==== Proof.RefValue.lean ====
/-
  The reference's two layers, as the edgewise aggregation.

  Layer one: x · W1 by the host's matrix product; for every edge the row its source word names, scaled by the edge's
  weight, added into the row its destination word names; plus the bias; maximum with zero. Layer two the same over
  h · W2, without the maximum. With every edge word in range both are the layers of the specification over the
  edges (dstRow, srcRow, weight) read out of the argument.
-/
import proofs.«123918_j62182536511521_2_alg».proof.Proof.Edges
import proofs.«123918_j62182536511521_2_alg».proof.Proof.SegmentSum
import proofs.«123918_j62182536511521_2_alg».proof.Proof.LibHostDot2

set_option maxRecDepth 16384

noncomputable section

namespace Cert.Bridge

open Idealize.ShloMosaic Idealize.ShloMosaic.ValueIdx Cert.ReferenceIdeal Cert.ReferenceIdeal.Read Cert.Lib Cert.Spec

variable (x0 : (⟨S10000x10000, .f32⟩ : BufTy).Contents (Elt Ideal)) (x1 : EdgeWords)
  (x3 : (⟨S10000x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))

/-- The host's first matrix product is the product of the specification. -/
theorem ref_dot1 : val_main_v27 (F := Ideal) x0 x3 = prod x0 x3 := by
  funext i
  obtain ⟨p, q, rfl⟩ : ∃ (p : Fin 10000) (q : Fin 32), i = ix2 p q := ⟨i 0, i 1, eq_ix2 i⟩
  exact hostDot2_apply (A := 10000) (K := 10000) (B := 32) Facts₀.dot_S10000x10000_S10000x32_S10000x32_1_0_0_1_n_n_wf x0 x3 p q

/-- The host's second matrix product, of any first-layer output. -/
theorem ref_dot2 (h : (⟨S10000x32, .f32⟩ : BufTy).Contents (Elt Ideal)) :
    Host.dotGeneral (F := Ideal) (φ₁ := .f32) (φ₂ := .f32) dot_S10000x32_S32x16_S10000x16_1_0_0_1_n_n none h x5 = prod h x5 := by
  funext i
  obtain ⟨p, q, rfl⟩ : ∃ (p : Fin 10000) (q : Fin 16), i = ix2 p q := ⟨i 0, i 1, eq_ix2 i⟩
  exact hostDot2_apply (A := 10000) (K := 32) (B := 16) Facts₀.dot_S10000x32_S32x16_S10000x16_1_0_0_1_n_n_wf h x5 p q

/-- The first bias, spread over the rows, read at an entry. -/
theorem ref_bias1 (p : Fin 10000) (q : Fin 32) : val_main_v42 (F := Ideal) x4 (ix2 p q) = x4 (ix1 q) := by
  rw [val_main_v42_apply, val_main_v41_apply]
  refine congrArg x4 (funext fun a => Fin.ext ?_)
  match a with
  | ⟨0, _⟩ => rfl

/-- The second bias, spread over the rows, read at an entry. -/
theorem ref_bias2 (p : Fin 10000) (q : Fin 16) : val_main_v87 (F := Ideal) x6 (ix2 p q) = x6 (ix1 q) := by
  rw [val_main_v87_apply, val_main_v86_apply]
  refine congrArg x6 (funext fun a => Fin.ext ?_)
  match a with
  | ⟨0, _⟩ => rfl

/-- THE REFERENCE'S FIRST LAYER. -/
theorem ref_layer1 (hx : InRange x1) :
    val_main_v44 (F := Ideal) x0 x1 x3 x4 = layer1 (dstRow x1) (srcRow x1) (weight x1) x0 x3 x4 := by
  funext i
  obtain ⟨p, q, rfl⟩ : ∃ (p : Fin 10000) (q : Fin 32), i = ix2 p q := ⟨i 0, i 1, eq_ix2 i⟩
  show max (val_main_v40 (F := Ideal) x0 x1 x3 (ix2 p q) + val_main_v42 (F := Ideal) x4 (ix2 p q)) (Ideal.ofBits .f32 0x00000000#32)
      = max (agg (dstRow x1) (srcRow x1) (weight x1) (prod x0 x3) (ix2 p q) + x4 (ix1 q)) (Ideal.ofBits .f32 0x00000000#32)
  rw [ref_bias1 x4 p q]
  have hseg := segment_sum_apply (E := 330000) (N := 10000) (C := 32) (by norm_num)
    Facts₀.scatter_S10000x32_S330000x1_S330000x32_1_0_0_1_wf Facts₀.gather_S10000x32_S330000x1_S330000x32_1_0_n_n_0_1_132_wf
    Facts₀.bcast_S330000_S330000x1_0 Facts₀.bcast_S330000x1_S330000x32_0_1
    (val_main_v38 (F := Ideal)) (fun _ => Ideal.ofBits_zero_f32)
    (val_main_v6 (F := Ideal) x1) (val_main_v32 (F := Ideal) x1) (val_main_v26 (F := Ideal) x1) (val_main_v27 (F := Ideal) x0 x3)
    (dstRow x1) (srcRow x1) (dstRow_spec x1 hx) (fun e => by rw [wrap_v32 x1 hx]; rfl) p q
  rw [show val_main_v40 (F := Ideal) x0 x1 x3 (ix2 p q) = _ from hseg, ref_dot1 x0 x3]
  rfl

/-- THE REFERENCE'S SECOND LAYER, over its first layer's output. -/
theorem ref_layer2 (hx : InRange x1) :
    val_main_v88 (F := Ideal) x0 x1 x3 x4 x5 x6
      = layer2 (dstRow x1) (srcRow x1) (weight x1) (val_main_v44 (F := Ideal) x0 x1 x3 x4) x5 x6 := by
  funext i
  obtain ⟨p, q, rfl⟩ : ∃ (p : Fin 10000) (q : Fin 16), i = ix2 p q := ⟨i 0, i 1, eq_ix2 i⟩
  show val_main_v85 (F := Ideal) x0 x1 x3 x4 x5 (ix2 p q) + val_main_v87 (F := Ideal) x6 (ix2 p q)
      = agg (dstRow x1) (srcRow x1) (weight x1) (prod (val_main_v44 (F := Ideal) x0 x1 x3 x4) x5) (ix2 p q) + x6 (ix1 q)
  rw [ref_bias2 x6 p q]
  have hseg := segment_sum_apply (E := 330000) (N := 10000) (C := 16) (by norm_num)
    Facts₀.scatter_S10000x16_S330000x1_S330000x16_1_0_0_1_wf Facts₀.gather_S10000x16_S330000x1_S330000x16_1_0_n_n_0_1_116_wf
    Facts₀.bcast_S330000_S330000x1_0 Facts₀.bcast_S330000x1_S330000x16_0_1
    (val_main_v83 (F := Ideal)) (fun _ => Ideal.ofBits_zero_f32)
    (val_main_v51 (F := Ideal) x1) (val_main_v77 (F := Ideal) x1) (val_main_v71 (F := Ideal) x1) (val_main_v72 (F := Ideal) x0 x1 x3 x4 x5)
    (dstRow x1) (srcRow x1) (fun e => by rw [v51_eq]; exact dstRow_spec x1 hx e)
    (fun e => by rw [v77_eq, wrap_v32 x1 hx]; rfl) p q
  rw [show val_main_v85 (F := Ideal) x0 x1 x3 x4 x5 (ix2 p q) = _ from hseg,
    show val_main_v72 (F := Ideal) x0 x1 x3 x4 x5 = prod (val_main_v44 (F := Ideal) x0 x1 x3 x4) x5 from ref_dot2 x5 _, v71_eq]
  rfl

end Cert.Bridge

end
-- ==== Proof.EdgeRange.lean ====
/-
  From the precondition to the range of the edge-index words. The precondition is a conjunction of tests, each
  reduced by "and" over all its axes; the last conjunct tests every word w of the int32[2, 320000] argument for
  0 ≤ w (signed) and w < 10000 (signed). A conjunction that is 1 has both conjuncts 1; an "and"-reduction over all axes
  that is 1 has every element 1; and a signed comparison that is 1 is the order of the signed values. Nothing of the
  float tests (the other conjunct) is opened.
-/
import proofs.«123918_j62182536511521_2_alg».proof.Pre_finite_inputs
import Idealize.ShloMosaic.PureOps.Ideal
import Idealize.ShloMosaic.Lib.ReduceAll
import Idealize.ShloMosaic.Lib.ValueIdx

noncomputable section

namespace Cert.Bridge

open Idealize.ShloMosaic Idealize.ShloMosaic.ValueIdx
open Cert.Pre_finite_inputs

variable [Cert.Pre_finite_inputs.Facts]

/-- The rank-0 shape has one index. -/
instance subsingleton_S_ : Subsingleton Cert.Pre_finite_inputs.S_.Idx := ⟨fun a b => funext fun d => d.elim0⟩

theorem toInt_lower_bound : (0#32 : BitVec 32).toInt = 0 := by decide
theorem toInt_upper_bound : (10000#32 : BitVec 32).toInt = 10000 := by decide

/-- The last ten operations: if their result is 1, every word of the index argument is in [0, 10000), whatever the
    other conjunct is. -/
theorem part2_in_range (x1 : IVec S2x320000 32) (v33 : IVec S_ 1)
    (h : fn_part2 (F := Ideal) x1 v33 ix0 = 1#1) (i : S2x320000.Idx) :
    0 ≤ (x1 i).toInt ∧ (x1 i).toInt < 10000 := by
  unfold fn_part2 at h
  -- the result is the "and" of the other conjunct and the all-axes reduction: take the reduction
  have hall := (IntOp.andi_eq_one.1 h).2
  -- every element under the reduction is 1
  have hel := Host.reduce_andi_all _ _ _ _ _ hall i
  -- the element is the "and" of the two comparisons
  obtain ⟨hge, hlt⟩ := IntOp.andi_eq_one.1 hel
  have h0 : (0#32 : BitVec 32).toInt ≤ (x1 i).toInt := IntOp.cmpi_sge.1 hge
  have h1 : (x1 i).toInt < (10000#32 : BitVec 32).toInt := IntOp.cmpi_slt.1 hlt
  rw [toInt_lower_bound] at h0
  rw [toInt_upper_bound] at h1
  exact ⟨h0, h1⟩

/-- THE PRECONDITION DECODED at one word of the edge-index argument. -/
theorem edge_words_in_range (x0 : FVec Ideal Cert.Pre_finite_inputs.S10000x10000 .f32) (x1 : IVec Cert.Pre_finite_inputs.S2x320000 32)
    (x2 : IVec Cert.Pre_finite_inputs.S200000x2 32) (x3 : FVec Ideal Cert.Pre_finite_inputs.S10000x32 .f32)
    (x4 : FVec Ideal Cert.Pre_finite_inputs.S32 .f32) (x5 : FVec Ideal Cert.Pre_finite_inputs.S32x16 .f32)
    (x6 : FVec Ideal Cert.Pre_finite_inputs.S16 .f32) (x7 : FVec Ideal Cert.Pre_finite_inputs.S32x1 .f32)
    (x8 : FVec Ideal Cert.Pre_finite_inputs.S1 .f32)
    (h : Cert.Pre_finite_inputs.fn (F := Ideal) x0 x1 x2 x3 x4 x5 x6 x7 x8 = fun _ => 1#1) (i : Cert.Pre_finite_inputs.S2x320000.Idx) :
    0 ≤ (x1 i).toInt ∧ (x1 i).toInt < 10000 := by
  have e := congrFun h ix0
  -- only definitions are unfolded: the chain of the first 48 operations ends in the call of the last ten
  unfold Cert.Pre_finite_inputs.fn Cert.Pre_finite_inputs.fn_part1 at e
  exact part2_in_range x1 _ e i

end Cert.Bridge

end
-- ==== Proof.lean ====
/-
  A two-layer graph convolution with a pair-scoring head: the kernel against its reference, on the extended reals.

  Both programs read the graph's 320000 edges out of one int32 argument, append the 10000 self-loops, and weigh edge e
  by 1 / sqrt (deg (src e)) · 1 / sqrt (deg (dst e)). The reference aggregates edge by edge: for every edge the source
  node's feature row, scaled by the weight, is added into the destination node's row. The kernel first scatters the
  weights into a dense 10000 × 10000 adjacency array and then multiplies that array by the feature array in three
  pipelined matrix products of 200-row blocks. The two agree when every edge word names a node (0 ≤ word < 10000):
  then wrapping and clamping a word change nothing, an entry of the adjacency array is the sum of the weights of the
  edges between two nodes, and — the weights being nonnegative — that sum times a feature spreads over the edges, with
  no finiteness needed. Outside that range the two programs treat a word differently (one drops the edge, the other
  wraps or clamps it), which is why the statement carries the range as part of its precondition.

  The three frames are the generated frame certificates and the reference's generated run; the ideal pass rewrote
  nothing, so there is nothing to preserve; the value claim is assembled below from the kernel's result (the head of
  the specification's two layers) and the reference's (the same term).
-/
import proofs.«123918_j62182536511521_2_alg».proof.Defs
import proofs.«123918_j62182536511521_2_alg».proof.Proof.Gen.Kernel
import proofs.«123918_j62182536511521_2_alg».proof.Proof.Gen.Kernel.Frame
import proofs.«123918_j62182536511521_2_alg».proof.Proof.Gen.KernelIdeal
import proofs.«123918_j62182536511521_2_alg».proof.Proof.Gen.KernelIdeal.Frame
import proofs.«123918_j62182536511521_2_alg».proof.Proof.Gen.ReferenceIdeal
import proofs.«123918_j62182536511521_2_alg».proof.Proof.Gen.ReferenceIdeal.Run
import proofs.«123918_j62182536511521_2_alg».proof.Proof.Gen.ReferenceIdeal.Read
import proofs.«123918_j62182536511521_2_alg».proof.Proof.Gen.Pre_finite_inputs
import proofs.«123918_j62182536511521_2_alg».proof.Proof.KernelRun
import proofs.«123918_j62182536511521_2_alg».proof.Proof.KernelMath
import proofs.«123918_j62182536511521_2_alg».proof.Proof.RefValue
import proofs.«123918_j62182536511521_2_alg».proof.Proof.Head
import proofs.«123918_j62182536511521_2_alg».proof.Proof.EdgeRange
import Idealize.ShloMosaic.Adequacy
import Idealize.ShloMosaic.Init

set_option maxRecDepth 16384

noncomputable section

namespace Cert.Proof

open Idealize.ShloMosaic Idealize.SL.Sem Cert.Spec Cert.Bridge

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the head of the specification's second layer over its first, at the edges read out of the
    edge-index argument. -/
theorem algebraic : Cert.algebraic_KernelIdeal_ReferenceIdeal := by
  intro m ρ m' ρ' hpre hagree
  have hx : ∀ c : Dev Cert.KernelIdeal.nD, InRange (m ((c.tc : Thread Cert.KernelIdeal.nD Cert.KernelIdeal.τ).loc Cert.KernelIdeal.main_arg1)) :=
    fun c i => edge_words_in_range _ _ _ _ _ _ _ _ _ (hpre c) i
  refine ⟨fun c => head
      (layer2 (dstRow (m ((c.tc : Thread Cert.KernelIdeal.nD Cert.KernelIdeal.τ).loc Cert.KernelIdeal.main_arg1))) (srcRow (m ((c.tc : Thread Cert.KernelIdeal.nD Cert.KernelIdeal.τ).loc Cert.KernelIdeal.main_arg1))) (weight (m ((c.tc : Thread Cert.KernelIdeal.nD Cert.KernelIdeal.τ).loc Cert.KernelIdeal.main_arg1)))
        (layer1 (dstRow (m ((c.tc : Thread Cert.KernelIdeal.nD Cert.KernelIdeal.τ).loc Cert.KernelIdeal.main_arg1))) (srcRow (m ((c.tc : Thread Cert.KernelIdeal.nD Cert.KernelIdeal.τ).loc Cert.KernelIdeal.main_arg1))) (weight (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Whole.run_result (F := Ideal) m ρ)
    rw [Cert.KernelIdeal.Whole.result_eq m ρ c, Cert.KernelIdeal.Whole.embeddings_eq _ _ _ _ _ _ (hx c)]
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v117_eq, a0, a1, a2, a3, a4, a5, a6, a7, a8, ref_result_eq,
      ref_layer2 _ _ _ _ _ _ (hx c), ref_layer1 _ _ _ _ (hx c)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
